-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S512x512 : Shape := ⟨2, ![512, 512]⟩
abbrev S512 : Shape := ⟨1, ![512]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S16x2048x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S16x2048x512 : Shape := ⟨3, ![16, 2048, 512]⟩
abbrev S512x512 : Shape := ⟨2, ![512, 512]⟩
abbrev S512 : Shape := ⟨1, ![512]⟩
abbrev S1x1024x512 : Shape := ⟨3, ![1, 1024, 512]⟩
abbrev S1024x512 : Shape := ⟨2, ![1024, 512]⟩
abbrev S1x512 : Shape := ⟨2, ![1, 512]⟩
abbrev S1x512x512 : Shape := ⟨3, ![1, 512, 512]⟩
abbrev S1x2048x512 : Shape := ⟨3, ![1, 2048, 512]⟩
abbrev S512x1 : Shape := ⟨2, ![512, 1]⟩

abbrev nBuf : Space → Nat
  | .hbm => 11
  | .vmem => 25
  | .smem => 0
  | _ => 0

abbrev bufTy : (tb : Table) → Fin (tcTables nBuf tb) → BufTy
  | .hbm, ⟨0, _⟩ => ⟨S16x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S16x2048x512, .bf16⟩
  | .hbm, ⟨8, _⟩ => ⟨S16x2048x512, .bf16⟩
  | .hbm, ⟨9, _⟩ => ⟨S16x2048x512, .bf16⟩
  | .hbm, ⟨10, _⟩ => ⟨S16x2048x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x2048x512, .bf16⟩
  | .local _ .vmem, ⟨17, _⟩ => ⟨S1x2048x512, .bf16⟩
  | .local _ .vmem, ⟨18, _⟩ => ⟨S1x2048x512, .bf16⟩
  | .local _ .vmem, ⟨19, _⟩ => ⟨S1x2048x512, .bf16⟩
  | .local _ .vmem, ⟨20, _⟩ => ⟨S1x512x512, .f32⟩
  | .local _ .vmem, ⟨21, _⟩ => ⟨S1x512x512, .f32⟩
  | .local _ .vmem, ⟨22, _⟩ => ⟨S512x1, .f32⟩
  | .local _ .vmem, ⟨23, _⟩ => ⟨S512x1, .f32⟩
  | .local _ .vmem, ⟨24, _⟩ => ⟨S512x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def k1_mult1 : BitVec 32 :=
  let c0_i32 : BitVec 32 := 0#32
  let c512_i32 : BitVec 32 := 512#32
  let v14 : BitVec 32 := Scalar.muli c0_i32 c512_i32
  v14
def k1_off1 (c0_i32 : BitVec 32) : Fin 3 → Nat :=
  let c0_10 : Index := 0#32
  let c512_i32 : BitVec 32 := 512#32
  let v14 : BitVec 32 := Scalar.muli c0_i32 c512_i32
  let v15 : BitVec 32 := v14
  let v16 : Index := Scalar.indexCast v15
  let c0_11 : Index := 0#32
  ![0, v16.toNat, 0]
def k1_mult2 : BitVec 32 :=
  let c1_i32 : BitVec 32 := 1#32
  let c512_i32_30 : BitVec 32 := 512#32
  let v53 : BitVec 32 := Scalar.muli c1_i32 c512_i32_30
  v53
def k1_mult3 : BitVec 32 :=
  let c2_i32 : BitVec 32 := 2#32
  let c512_i32_51 : BitVec 32 := 512#32
  let v92 : BitVec 32 := Scalar.muli c2_i32 c512_i32_51
  v92
def k1_mult4 : BitVec 32 :=
  let c3_i32 : BitVec 32 := 3#32
  let c512_i32_72 : BitVec 32 := 512#32
  let v131 : BitVec 32 := Scalar.muli c3_i32 c512_i32_72
  v131
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x512_S512x512 : S512x512.ShapeCasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  reduces_S512x512_S512 : S512x512.Reduces [1] S512
  shapeCasts_S512_S512x1 : S512.ShapeCasts S512x1
  broadcasts_S512x1_S512x512 : S512x1.Broadcasts S512x512
  shapeCasts_S512x512_S1x512x512 : S512x512.ShapeCasts S1x512x512
  dot_S1024x512_S512x512_S1024x512_1_0_0_1_n_n_wf : DotDims.WF S1024x512 S512x512 S1024x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x2048x512.size a
  hwx0_0 : ∀ i : grid0.Coords, EltTy.bits .f32 = 32 ∨ (Rect.block (s := S16x2048x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x512.size a ≤ S16x2048x512.size a
  hwx0_7 : ∀ i : grid0.Coords, EltTy.bits .bf16 = 32 ∨ (Rect.block (s := S16x2048x512) S1x1024x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x512.size a ≤ S16x2048x512.size a
  hwx0_8 : ∀ i : grid0.Coords, EltTy.bits .bf16 = 32 ∨ (Rect.block (s := S16x2048x512) S1x1024x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x512.size a ≤ S16x2048x512.size a
  hwx0_9 : ∀ i : grid0.Coords, EltTy.bits .bf16 = 32 ∨ (Rect.block (s := S16x2048x512) S1x1024x512.size (cc0_transform_9 i) (hinb0_9 i)).WholeWords (EltTy.packing .bf16)
  hrank1 : 0 < grid1.rank
  k1_mult1_dvd : 512 ∣ k1_mult1.toNat
  k1_off1_inb : ∀ (r : Fin 4), ∀ a, (k1_off1 (BitVec.ofNat 32 r.val)) a + S1x512x512.size a ≤ S1x2048x512.size a
  k1_mult2_dvd : 512 ∣ k1_mult2.toNat
  k1_mult3_dvd : 512 ∣ k1_mult3.toNat
  k1_mult4_dvd : 512 ∣ k1_mult4.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S16x2048x512.size a
  hwx1_0 : ∀ i : grid1.Coords, EltTy.bits .bf16 = 32 ∨ (Rect.block (s := S16x2048x512) S1x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x512.size a ≤ S16x2048x512.size a
  hwx1_1 : ∀ i : grid1.Coords, EltTy.bits .bf16 = 32 ∨ (Rect.block (s := S16x2048x512) S1x2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x512.size a ≤ S16x2048x512.size a
  hwx1_2 : ∀ i : grid1.Coords, EltTy.bits .bf16 = 32 ∨ (Rect.block (s := S16x2048x512) S1x2048x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S16x2048x512.size a
  hwx1_3 : ∀ i : grid1.Coords, EltTy.bits .f32 = 32 ∨ (Rect.block (s := S16x2048x512) S1x512x512.size (cc1_transform_3 i) (hinb1_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v0_0) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x512 : Shape := ⟨3, ![16, 2048, 512]⟩
abbrev S512x512 : Shape := ⟨2, ![512, 512]⟩
abbrev S512 : Shape := ⟨1, ![512]⟩
abbrev S1x1x512 : Shape := ⟨3, ![1, 1, 512]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S16x2048x512, .f32⟩
  | .hbm, ⟨8, _⟩ => ⟨S1x1x512, .f32⟩
  | .hbm, ⟨9, _⟩ => ⟨S16x2048x512, .f32⟩
  | .hbm, ⟨10, _⟩ => ⟨S16x2048x512, .f32⟩
  | .hbm, ⟨11, _⟩ => ⟨S16x2048x512, .f32⟩
  | .hbm, ⟨12, _⟩ => ⟨S1x1x512, .f32⟩
  | .hbm, ⟨13, _⟩ => ⟨S16x2048x512, .f32⟩
  | .hbm, ⟨14, _⟩ => ⟨S16x2048x512, .f32⟩
  | .hbm, ⟨15, _⟩ => ⟨S16x2048x512, .f32⟩
  | .hbm, ⟨16, _⟩ => ⟨S1x1x512, .f32⟩
  | .hbm, ⟨17, _⟩ => ⟨S16x2048x512, .f32⟩
  | .hbm, ⟨18, _⟩ => ⟨S16x2048x512, .f32⟩
  | .hbm, ⟨19, _⟩ => ⟨S16x2048x2048, .f32⟩
  | .hbm, ⟨20, _⟩ => ⟨S_, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S16x2048x2048, .f32⟩
  | .hbm, ⟨33, _⟩ => ⟨S16x2048x2048, .f32⟩
  | .hbm, ⟨34, _⟩ => ⟨S16x2048x512, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x2048x512_0_1_2 : S1x1x512.BroadcastsInDim S16x2048x512 (![0, 1, 2] : Fin 3 → Fin S16x2048x512.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x512_S512x512_S16x2048x512_2_0_01_1_n_n_wf : DotDims.WF S16x2048x512 S512x512 S16x2048x512 [2] [0] [0, 1] [1] [] []
  dot_S16x2048x512_S16x2048x512_S16x2048x2048_2_2_1_1_0_0_wf : DotDims.WF S16x2048x512 S16x2048x512 S16x2048x2048 [2] [2] [1] [1] [0] [0]
  dot_S16x2048x2048_S16x2048x512_S16x2048x512_2_1_1_2_0_0_wf : DotDims.WF S16x2048x2048 S16x2048x512 S16x2048x512 [2] [1] [1] [2] [0] [0]

variable [Facts₀]

def dot_S16x2048x512_S512x512_S16x2048x512_2_0_01_1_n_n : DotDims S16x2048x512 S512x512 S16x2048x512 where
  lhsContracting := [2]
  rhsContracting := [0]
  lhsNonContracting := [0, 1]
  rhsNonContracting := [1]
  lhsBatch := []
  rhsBatch := []
  wf := dot_S16x2048x512_S512x512_S16x2048x512_2_0_01_1_n_n_wf
def dot_S16x2048x512_S16x2048x512_S16x2048x2048_2_2_1_1_0_0 : DotDims S16x2048x512 S16x2048x512 S16x2048x2048 where
  lhsContracting := [2]
  rhsContracting := [2]
  lhsNonContracting := [1]
  rhsNonContracting := [1]
  lhsBatch := [0]
  rhsBatch := [0]
  wf := dot_S16x2048x512_S16x2048x512_S16x2048x2048_2_2_1_1_0_0_wf
def dot_S16x2048x2048_S16x2048x512_S16x2048x512_2_1_1_2_0_0 : DotDims S16x2048x2048 S16x2048x512 S16x2048x512 where
  lhsContracting := [2]
  rhsContracting := [1]
  lhsNonContracting := [1]
  rhsNonContracting := [2]
  lhsBatch := [0]
  rhsBatch := [0]
  wf := dot_S16x2048x2048_S16x2048x512_S16x2048x512_2_1_1_2_0_0_wf

class Facts : Prop extends Facts₀ where

variable [Facts]
-- ==== Proof.AttnBody.lean ====
/-
  The attention kernel's body as ONE function of its three input blocks.

  At a grid point the body holds a query tile q (512 rows of 512 features), and all 2048 key rows and value rows of
  the batch. It walks the keys in four tiles of 512. With running row maxima m, running row sums l and running
  weighted sums acc (started at a large finite negative number, 0 and 0), a tile with scores s = q·kᵀ gives
    m' = max m (row maxima of s),  a = exp (m - m'),  p = exp (s - m'),
    l' = a·l + (row sums of p),    acc' = a·acc + p·v,
  and after the fourth tile the block written out is acc·(1/l).
  `step` is one such tile and `attnBlock` the whole body; `out_attn` says the buffer contents the symbolic run of
  the body found for the output window are exactly `attnBlock` of the input blocks: every read of m, l or acc
  sees the last value stored there, and each key or value tile is the block read through a window of 512 rows.
-/
import proofs.«167646_j37890201486074_2_alg».proof.Proof.Gen.KernelIdeal.Frame
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The running state of the softmax: row maxima, row sums, weighted sums. -/
structure St (F : FTy → Type) where
  m : FVec F S512x1 .f32
  l : FVec F S512x1 .f32
  acc : FVec F S512x512 .f32

/-- Scores of the query tile against one key tile: q·kᵀ. -/
def scores (q kt : FVec F S512x512 .bf16) : FVec F S512x512 .f32 :=
  matmul dot_S512x512_S512x512_S512x512_1_0_0_1_n_n none q
    (transpose S512x512 [1, 0] kt transposes_S512x512_p1_0_S512x512) (constant S512x512 .f32 0x00000000#32)

/-- Row maxima of a score tile, as a column. -/
def rowMax (s : FVec F S512x512 .f32) : FVec F S512x1 .f32 :=
  shapeCast S512x1 (multiReduction .maximumf [1] S512 s 0xFF800000#32 reduces_S512x512_S512 (.inl rfl) rfl) shapeCasts_S512_S512x1

/-- Row sums of a tile, as a column. -/
def rowSum (p : FVec F S512x512 .f32) : FVec F S512x1 .f32 :=
  shapeCast S512x1 (multiReduction .add [1] S512 p 0x00000000#32 reduces_S512x512_S512 (.inl rfl) rfl) shapeCasts_S512_S512x1

def newMax (s : FVec F S512x512 .f32) (m : FVec F S512x1 .f32) : FVec F S512x1 .f32 := maximumf m (rowMax s)

def decay (m m' : FVec F S512x1 .f32) : FVec F S512x1 .f32 := exp (subf m m')

def probs (s : FVec F S512x512 .f32) (m' : FVec F S512x1 .f32) : FVec F S512x512 .f32 :=
  exp (subf s (broadcastTo S512x512 m' broadcasts_S512x1_S512x512))

def newL (a l : FVec F S512x1 .f32) (p : FVec F S512x512 .f32) : FVec F S512x1 .f32 :=
  shapeCast S512x1 (addf (mulf a l) (rowSum p)) shapeCasts_S512x1_S512x1

def newAcc (a : FVec F S512x1 .f32) (acc p : FVec F S512x512 .f32) (vt : FVec F S512x512 .bf16) : FVec F S512x512 .f32 :=
  shapeCast S512x512
    (addf (mulf (broadcastTo S512x512 a broadcasts_S512x1_S512x512) acc)
      (matmul dot_S512x512_S512x512_S512x512_1_0_0_1_n_n none (truncf .bf16 p bitsLt_bf16_f32) vt (constant S512x512 .f32 0x00000000#32)))
    shapeCasts_S512x512_S512x512

/-- One key tile. -/
def step (q kt vt : FVec F S512x512 .bf16) (st : St F) : St F :=
  ⟨shapeCast S512x1 (newMax (scores q kt) st.m) shapeCasts_S512x1_S512x1,
   newL (decay st.m (newMax (scores q kt) st.m)) st.l (probs (scores q kt) (newMax (scores q kt) st.m)),
   newAcc (decay st.m (newMax (scores q kt) st.m)) st.acc (probs (scores q kt) (newMax (scores q kt) st.m)) vt⟩

/-- The state before the first tile. -/
def init : St F :=
  ⟨shapeCast S512x1 (broadcast S512x1 (Scalar.ofBits .f32 0xFF333332#32)) shapeCasts_S512x1_S512x1,
   shapeCast S512x1 (broadcast S512x1 (Scalar.ofBits .f32 0x00000000#32)) shapeCasts_S512x1_S512x1,
   shapeCast S512x512 (broadcast S512x512 (Scalar.ofBits .f32 0x00000000#32)) shapeCasts_S512x512_S512x512⟩

/-- Rows `off 1 … off 1 + 511` of the batch's key (or value) block, as a 512×512 tile. -/
def kvTile (x : Vec F S1x2048x512 .bf16) (off : Fin 3 → Nat) (inb : ∀ a, off a + S1x512x512.size a ≤ S1x2048x512.size a) :
    FVec F S512x512 .bf16 :=
  shapeCast S512x512 (View.ld x (Rect.unit (s := S1x2048x512) off S1x512x512.size inb)) shapeCasts_S1x512x512_S512x512

theorem inb0 : ∀ a, (![0, 0, 0] : Fin 3 → Nat) a + S1x512x512.size a ≤ S1x2048x512.size a := by decide
theorem inb1 : ∀ a, (![0, 512, 0] : Fin 3 → Nat) a + S1x512x512.size a ≤ S1x2048x512.size a := by decide
theorem inb2 : ∀ a, (![0, 1024, 0] : Fin 3 → Nat) a + S1x512x512.size a ≤ S1x2048x512.size a := by decide
theorem inb3 : ∀ a, (![0, 1536, 0] : Fin 3 → Nat) a + S1x512x512.size a ≤ S1x2048x512.size a := by decide

/-- The state after the four tiles. -/
def final (x0 : Vec F S1x512x512 .bf16) (x1 x2 : Vec F S1x2048x512 .bf16) : St F :=
  step (shapeCast S512x512 x0 shapeCasts_S1x512x512_S512x512) (kvTile x1 ![0, 1536, 0] inb3) (kvTile x2 ![0, 1536, 0] inb3)
    (step (shapeCast S512x512 x0 shapeCasts_S1x512x512_S512x512) (kvTile x1 ![0, 1024, 0] inb2) (kvTile x2 ![0, 1024, 0] inb2)
      (step (shapeCast S512x512 x0 shapeCasts_S1x512x512_S512x512) (kvTile x1 ![0, 512, 0] inb1) (kvTile x2 ![0, 512, 0] inb1)
        (step (shapeCast S512x512 x0 shapeCasts_S1x512x512_S512x512) (kvTile x1 ![0, 0, 0] inb0) (kvTile x2 ![0, 0, 0] inb0) init)))

/-- The block the body writes out: acc·(1/l) after the fourth tile. -/
def attnBlock (x0 : Vec F S1x512x512 .bf16) (x1 x2 : Vec F S1x2048x512 .bf16) : Vec F S1x512x512 .f32 :=
  shapeCast S1x512x512
    (mulf (final x0 x1 x2).acc
      (broadcastTo S512x512 (divf (broadcast S512x1 (Scalar.ofBits .f32 0x3F800000#32)) (final x0 x1 x2).l) broadcasts_S512x1_S512x512))
    shapeCasts_S512x512_S1x512x512

theorem hz3 : (![0, 0, 0] : Fin 3 → Nat) = fun _ => 0 := funext fun a => by fin_cases a <;> rfl

/-- What the run of the body leaves in the output window's buffer is `attnBlock` of the three input blocks. -/
theorem out_attn (c : Dev nD) (i : grid1.Coords) (arg2 : Memref sig .tc .vmem S1x512x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole)
    (x0 : Vec F S1x512x512 .bf16) (x1 : Vec F S1x2048x512 .bf16) (x2 : Vec F S1x2048x512 .bf16) :
    out1_A_3 (F := F) c i arg2 harg2 arg3 harg3 arg4 harg4 arg5 harg5 arg6 harg6 arg7 harg7 arg8 harg8 x0 x1 x2 = attnBlock x0 x1 x2 := by
  unfold out1_A_3
  rw [View.read_writes_eq_canon _ _ _ (cover1_A_3 c i arg2 harg2 arg3 harg3 arg4 harg4 arg5 harg5 arg6 harg6 arg7 harg7 arg8 harg8 x0 x1 x2)]
  unfold kernelRun1_A
  dsimp only
  sl_unfold_words
  rw [View.canon_unit_zero hz3]
  simp only [View.readCov_cons_toLoadRect, View.readAt_eq_ld, harg2.read_unread, harg3.read_unread, harg4.read_unread,
    View.ld_unit_zero (S := S1x512x512) hz3]
  rfl

end Cert.KernelIdeal.Attn

end
-- ==== Proof.Words.lean ====
/-
  Three 32-bit float words read as extended reals: the word of negative infinity is the bottom element, the word
  0x3F800000 is the number one, and the word 0xFF333332 (a large finite negative number, about -2.38e38) is a real.
-/
import Idealize.ShloMosaic.PureOps.Ideal
import Idealize.ShloMosaic.PureOps.Ideal.Laws

noncomputable section

namespace Cert.Words

open Idealize.ShloMosaic

/-- The word of -∞ is the bottom of the extended reals. -/
theorem neg_inf : Ideal.ofBits .f32 0xFF800000#32 = (⊥ : EReal) := by
  simp [Ideal.ofBits, Ideal.ieee]

/-- The word 0x3F800000 is one. -/
theorem one_f32 : Ideal.ofBits .f32 0x3F800000#32 = (1 : EReal) := by
  simp [Ideal.ofBits, Ideal.ieee]
  exact_mod_cast (by norm_num : ((8388608 : ℝ) * ((2 : ℝ) ^ 23)⁻¹) = 1)

/-- The word 0xFF333332 is a (finite) real number. -/
theorem seed_real : ∃ r : ℝ, Ideal.ofBits .f32 0xFF333332#32 = (r : EReal) := by
  simp [Ideal.ofBits, Ideal.ieee]
  exact ⟨-(11744050 * 2 ^ 104 : ℝ), by norm_cast⟩

end Cert.Words

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.AttnIndex.lean ====
/-
  The attention block read at an index, over the extended reals.

  Row p of the query tile meets the keys tile by tile. Writing s j = Σ_d q(p,d)·k(j,d) for the scores of one key tile
  and v j = V(j,e) for the value column e, one tile turns the row's state (m, l, a) into
    m' = max m (max_j s j),   l' = exp(m - m')·l + Σ_j exp(s j - m'),   a' = exp(m - m')·a + Σ_j exp(s j - m')·v j
  (`rowStep`), and the block entry (p, e) is a·(1/l) after the fourth tile. `step_row` reads one vector-level tile
  step at a row; `attnBlock_apply` reads the whole block entry as four `rowStep`s from (seed, 0, 0), with the key
  tile t's row j being row 512·t + j of the batch's keys.
-/
import proofs.«167646_j37890201486074_2_alg».proof.Proof.AttnBody
import proofs.«167646_j37890201486074_2_alg».proof.Proof.Words
import proofs.«167646_j37890201486074_2_alg».proof.Proof.LibColumnLayout
import proofs.«167646_j37890201486074_2_alg».proof.Proof.LibPlainDot
import Idealize.ShloMosaic.Lib.ValueIdx
import Idealize.ShloMosaic.Lib.ValueLayout
import Idealize.ShloMosaic.PureOps.Ideal.Laws

set_option maxRecDepth 16384

noncomputable section

namespace Cert.KernelIdeal.Attn

open Cert.KernelIdeal Cert.KernelIdeal.Gen
open Idealize.ShloMosaic Idealize.ShloMosaic.ValueIdx

/-- One key tile on one row: the state is (running max, running sum, running weighted sum). -/
def rowStep {n : ℕ} (s v : Fin n → EReal) (st : EReal × EReal × EReal) : EReal × EReal × EReal :=
  (max st.1 (Finset.univ.fold max ⊥ s),
   Ideal.exp (st.1 - max st.1 (Finset.univ.fold max ⊥ s)) * st.2.1 + ∑ j, Ideal.exp (s j - max st.1 (Finset.univ.fold max ⊥ s)),
   Ideal.exp (st.1 - max st.1 (Finset.univ.fold max ⊥ s)) * st.2.2 + ∑ j, Ideal.exp (s j - max st.1 (Finset.univ.fold max ⊥ s)) * v j)

/-- Row p, feature e of a vector-level state. -/
def rowOf (st : St Ideal) (p e : Fin 512) : EReal × EReal × EReal :=
  (st.m (ix2 p (0 : Fin 1)), st.l (ix2 p (0 : Fin 1)), st.acc (ix2 p e))

/-- The body's matrix products contract the left operand's columns with the right operand's rows. -/
theorem dotReads : Cert.Lib.PlainDot.Reads (R := 512) (K := 512) (C := 512) dot_S512x512_S512x512_S512x512_1_0_0_1_n_n where
  rank := rfl
  size := rfl
  lhs0 := fun i q => by
    unfold DotDims.lhsIdx
    rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
    rfl
  lhs1 := fun i q => dot_S512x512_S512x512_S512x512_1_0_0_1_n_n.lhsIdx_val_of_single rfl i q
  rhs0 := fun i q => dot_S512x512_S512x512_S512x512_1_0_0_1_n_n.rhsIdx_val_of_single rfl i q
  rhs1 := fun i q => by
    unfold DotDims.rhsIdx
    rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
    rfl

/-- A score: row p of the queries against row j of the key tile. -/
theorem scores_apply (q kt : FVec Ideal S512x512 .bf16) (p j : Fin 512) :
    scores q kt (ix2 p j) = ∑ d : Fin 512, q (ix2 p d) * kt (ix2 j d) := by
  unfold scores
  refine (Cert.Lib.PlainDot.matmul_zero_apply dotReads none q _ p j).trans ?_
  exact Finset.sum_congr rfl fun d _ => congrArg (q (ix2 p d) * ·) (transpose_ix2_apply kt _ d j)

/-- A row's maximum over a tile. -/
theorem rowMax_apply (s : FVec Ideal S512x512 .f32) (p : Fin 512) (u : Fin 1) :
    rowMax s (ix2 p u) = Finset.univ.fold max ⊥ (fun j : Fin 512 => s (ix2 p j)) := by
  unfold rowMax
  refine (Cert.ColumnLayout.shapeCast_a_a1_apply _ _ p u).trans ?_
  refine (Ideal.multiReduction_maximumf_single s _ reduces_S512x512_S512 (.inl rfl) rfl (ix1 p)).trans ?_
  show (Finset.univ : Finset (Fin 512)).fold max (Ideal.ofBits .f32 0xFF800000#32) (fun j => s (reduces_S512x512_S512.lift (ix1 p) j)) = _
  rw [Cert.Words.neg_inf]
  refine congrArg (fun f => (Finset.univ : Finset (Fin 512)).fold max (⊥ : EReal) f) (funext fun j => congrArg s (funext fun a => Fin.ext ?_))
  match a with
  | ⟨0, _⟩ => rfl
  | ⟨1, _⟩ => rfl

/-- A row's sum over a tile. -/
theorem rowSum_apply (s : FVec Ideal S512x512 .f32) (p : Fin 512) (u : Fin 1) :
    rowSum s (ix2 p u) = ∑ j : Fin 512, s (ix2 p j) := by
  unfold rowSum
  refine (Cert.ColumnLayout.shapeCast_a_a1_apply _ _ p u).trans ?_
  refine (Ideal.multiReduction_add_single s _ reduces_S512x512_S512 (.inl rfl) rfl (ix1 p)).trans ?_
  show ∑ j : Fin 512, s (reduces_S512x512_S512.lift (ix1 p) j) = _
  refine Finset.sum_congr rfl fun j _ => congrArg s (funext fun a => Fin.ext ?_)
  match a with
  | ⟨0, _⟩ => rfl
  | ⟨1, _⟩ => rfl

theorem newMax_apply (s : FVec Ideal S512x512 .f32) (m : FVec Ideal S512x1 .f32) (p : Fin 512) :
    newMax s m (ix2 p (0 : Fin 1)) = max (m (ix2 p (0 : Fin 1))) (Finset.univ.fold max ⊥ (fun j : Fin 512 => s (ix2 p j))) := by
  unfold newMax
  exact congrArg (max (m (ix2 p (0 : Fin 1)))) (rowMax_apply s p 0)

theorem probs_apply (s : FVec Ideal S512x512 .f32) (m' : FVec Ideal S512x1 .f32) (p j : Fin 512) :
    probs s m' (ix2 p j) = Ideal.exp (s (ix2 p j) - m' (ix2 p (0 : Fin 1))) := by
  unfold probs
  exact congrArg (fun z => Ideal.exp (s (ix2 p j) - z)) (Cert.ColumnLayout.broadcastTo_a1_ab_apply m' _ p j)

/-- One vector-level tile step, read at row p and feature e, is the row step on the tile's scores and value column. -/
theorem step_row (q kt vt : FVec Ideal S512x512 .bf16) (st : St Ideal) (p e : Fin 512) :
    rowOf (step q kt vt st) p e
      = rowStep (fun j : Fin 512 => ∑ d : Fin 512, q (ix2 p d) * kt (ix2 j d)) (fun j : Fin 512 => vt (ix2 j e)) (rowOf st p e) := by
  have hs : (fun j : Fin 512 => scores q kt (ix2 p j)) = fun j : Fin 512 => ∑ d : Fin 512, q (ix2 p d) * kt (ix2 j d) :=
    funext fun j => scores_apply q kt p j
  have hm : newMax (scores q kt) st.m (ix2 p (0 : Fin 1))
      = max (st.m (ix2 p (0 : Fin 1))) (Finset.univ.fold max ⊥ (fun j : Fin 512 => ∑ d : Fin 512, q (ix2 p d) * kt (ix2 j d))) := by
    rw [newMax_apply, hs]
  have hp : ∀ j : Fin 512, probs (scores q kt) (newMax (scores q kt) st.m) (ix2 p j)
      = Ideal.exp ((∑ d : Fin 512, q (ix2 p d) * kt (ix2 j d))
          - max (st.m (ix2 p (0 : Fin 1))) (Finset.univ.fold max ⊥ (fun j : Fin 512 => ∑ d : Fin 512, q (ix2 p d) * kt (ix2 j d)))) := fun j => by
    rw [probs_apply, hm, scores_apply]
  have ha : decay st.m (newMax (scores q kt) st.m) (ix2 p (0 : Fin 1))
      = Ideal.exp (st.m (ix2 p (0 : Fin 1))
          - max (st.m (ix2 p (0 : Fin 1))) (Finset.univ.fold max ⊥ (fun j : Fin 512 => ∑ d : Fin 512, q (ix2 p d) * kt (ix2 j d)))) := by
    unfold decay
    exact congrArg (fun z => Ideal.exp (st.m (ix2 p (0 : Fin 1)) - z)) hm
  unfold rowOf rowStep step
  refine Prod.ext ?_ (Prod.ext ?_ ?_)
  · show shapeCast S512x1 (newMax (scores q kt) st.m) shapeCasts_S512x1_S512x1 (ix2 p (0 : Fin 1)) = _
    rw [shapeCast_self, hm]
  · show newL _ st.l _ (ix2 p (0 : Fin 1)) = _
    unfold newL
    rw [shapeCast_self]
    show decay st.m (newMax (scores q kt) st.m) (ix2 p (0 : Fin 1)) * st.l (ix2 p (0 : Fin 1))
        + rowSum (probs (scores q kt) (newMax (scores q kt) st.m)) (ix2 p (0 : Fin 1)) = _
    rw [ha, rowSum_apply]
    exact congrArg₂ (· + ·) rfl (Finset.sum_congr rfl fun j _ => hp j)
  · show newAcc _ st.acc _ vt (ix2 p e) = _
    unfold newAcc
    rw [shapeCast_self]
    show broadcastTo S512x512 (decay st.m (newMax (scores q kt) st.m)) broadcasts_S512x1_S512x512 (ix2 p e) * st.acc (ix2 p e)
        + matmul dot_S512x512_S512x512_S512x512_1_0_0_1_n_n none (truncf .bf16 (probs (scores q kt) (newMax (scores q kt) st.m)) bitsLt_bf16_f32) vt
            (constant S512x512 .f32 0x00000000#32) (ix2 p e) = _
    rw [Cert.ColumnLayout.broadcastTo_a1_ab_apply, ha]
    refine congrArg₂ (· + ·) rfl ?_
    refine (Cert.Lib.PlainDot.matmul_zero_apply dotReads none _ vt p e).trans ?_
    exact Finset.sum_congr rfl fun j _ => congrArg (· * vt (ix2 j e)) (hp j)

/-- A key (or value) tile read at (j, d): row `o + j` of the batch's block. -/
theorem kvTile_apply (x : Vec Ideal S1x2048x512 .bf16) (o : ℕ)
    (inb : ∀ a, (![0, o, 0] : Fin 3 → Nat) a + S1x512x512.size a ≤ S1x2048x512.size a) (j d : Fin 512) (h : o + j.val < 2048) :
    kvTile x ![0, o, 0] inb (ix2 j d) = x (ix3 (0 : Fin 1) (⟨o + j.val, h⟩ : Fin 2048) d) := by
  unfold kvTile
  refine (shapeCast_1ab_ab_apply _ _ j d).trans ?_
  show x ((Rect.unit (s := S1x2048x512) ![0, o, 0] S1x512x512.size inb).idx (ix3 (0 : Fin 1) j d)) = _
  refine congrArg x (funext fun a => Fin.ext ?_)
  match a with
  | ⟨0, _⟩ => rfl
  | ⟨1, _⟩ => show o + 1 * j.val = o + j.val; rw [Nat.one_mul]
  | ⟨2, _⟩ => show 0 + 1 * d.val = d.val; rw [Nat.one_mul, Nat.zero_add]

/-- The scores of query row p against the key tile that starts at row o. -/
def tileS (x0 : Vec Ideal S1x512x512 .bf16) (x1 : Vec Ideal S1x2048x512 .bf16) (p : Fin 512) (o : ℕ) (ho : o + 512 ≤ 2048) : Fin 512 → EReal :=
  fun j => ∑ d : Fin 512, x0 (ix3 (0 : Fin 1) p d) * x1 (ix3 (0 : Fin 1) (⟨o + j.val, by have := j.isLt; omega⟩ : Fin 2048) d)

/-- Column e of the value tile that starts at row o. -/
def tileV (x2 : Vec Ideal S1x2048x512 .bf16) (e : Fin 512) (o : ℕ) (ho : o + 512 ≤ 2048) : Fin 512 → EReal :=
  fun j => x2 (ix3 (0 : Fin 1) (⟨o + j.val, by have := j.isLt; omega⟩ : Fin 2048) e)

/-- One tile of the body at a row, in terms of the blocks' entries. -/
theorem step_tile (x0 : Vec Ideal S1x512x512 .bf16) (x1 x2 : Vec Ideal S1x2048x512 .bf16) (o : ℕ) (ho : o + 512 ≤ 2048)
    (inb : ∀ a, (![0, o, 0] : Fin 3 → Nat) a + S1x512x512.size a ≤ S1x2048x512.size a) (st : St Ideal) (p e : Fin 512) :
    rowOf (step (shapeCast S512x512 x0 shapeCasts_S1x512x512_S512x512) (kvTile x1 ![0, o, 0] inb) (kvTile x2 ![0, o, 0] inb) st) p e
      = rowStep (tileS x0 x1 p o ho) (tileV x2 e o ho) (rowOf st p e) := by
  rw [step_row]
  have hs : (fun j : Fin 512 => ∑ d : Fin 512, shapeCast S512x512 x0 shapeCasts_S1x512x512_S512x512 (ix2 p d) * kvTile x1 ![0, o, 0] inb (ix2 j d))
      = tileS x0 x1 p o ho := funext fun j => Finset.sum_congr rfl fun d _ => by
    rw [shapeCast_1ab_ab_apply, kvTile_apply x1 o inb j d (by have := j.isLt; omega)]
  have hv : (fun j : Fin 512 => kvTile x2 ![0, o, 0] inb (ix2 j e)) = tileV x2 e o ho := funext fun j =>
    kvTile_apply x2 o inb j e (by have := j.isLt; omega)
  rw [hs, hv]

/-- The row state after the four tiles, from (seed, 0, 0). -/
def rows (x0 : Vec Ideal S1x512x512 .bf16) (x1 x2 : Vec Ideal S1x2048x512 .bf16) (p e : Fin 512) : EReal × EReal × EReal :=
  rowStep (tileS x0 x1 p 1536 (by omega)) (tileV x2 e 1536 (by omega))
    (rowStep (tileS x0 x1 p 1024 (by omega)) (tileV x2 e 1024 (by omega))
      (rowStep (tileS x0 x1 p 512 (by omega)) (tileV x2 e 512 (by omega))
        (rowStep (tileS x0 x1 p 0 (by omega)) (tileV x2 e 0 (by omega))
          (Ideal.ofBits .f32 0xFF333332#32, 0, 0))))

theorem rowOf_init (p e : Fin 512) : rowOf (init (F := Ideal)) p e = (Ideal.ofBits .f32 0xFF333332#32, 0, 0) := by
  unfold rowOf init
  refine Prod.ext ?_ (Prod.ext ?_ ?_)
  · show shapeCast S512x1 (broadcast S512x1 (Scalar.ofBits (F := Ideal) .f32 0xFF333332#32)) shapeCasts_S512x1_S512x1 (ix2 p (0 : Fin 1)) = _
    rw [shapeCast_self]; rfl
  · show shapeCast S512x1 (broadcast S512x1 (Scalar.ofBits (F := Ideal) .f32 0x00000000#32)) shapeCasts_S512x1_S512x1 (ix2 p (0 : Fin 1)) = _
    rw [shapeCast_self]; exact Ideal.ofBits_zero_f32
  · show shapeCast S512x512 (broadcast S512x512 (Scalar.ofBits (F := Ideal) .f32 0x00000000#32)) shapeCasts_S512x512_S512x512 (ix2 p e) = _
    rw [shapeCast_self]; exact Ideal.ofBits_zero_f32

theorem final_row (x0 : Vec Ideal S1x512x512 .bf16) (x1 x2 : Vec Ideal S1x2048x512 .bf16) (p e : Fin 512) :
    rowOf (final x0 x1 x2) p e = rows x0 x1 x2 p e := by
  unfold final rows
  rw [step_tile x0 x1 x2 1536 (by omega), step_tile x0 x1 x2 1024 (by omega), step_tile x0 x1 x2 512 (by omega),
    step_tile x0 x1 x2 0 (by omega), rowOf_init]

/-- The block entry (p, e): the weighted sum times the reciprocal of the sum, after the four tiles. -/
theorem attnBlock_apply (x0 : Vec Ideal S1x512x512 .bf16) (x1 x2 : Vec Ideal S1x2048x512 .bf16) (u : Fin 1) (p e : Fin 512) :
    attnBlock x0 x1 x2 (ix3 u p e) = (rows x0 x1 x2 p e).2.2 * Ideal.div 1 (rows x0 x1 x2 p e).2.1 := by
  unfold attnBlock
  refine (shapeCast_ab_1ab_apply _ _ u p e).trans ?_
  rw [← final_row x0 x1 x2 p e]
  refine (mulf_apply _ _ _).trans ?_
  refine congrArg₂ (· * ·) rfl ?_
  refine (Cert.ColumnLayout.broadcastTo_a1_ab_apply _ _ p e).trans ?_
  refine (divf_apply _ _ _).trans ?_
  refine congrArg₂ Ideal.div ?_ rfl
  exact Cert.Words.one_f32

end Cert.KernelIdeal.Attn

end
-- ==== Proof.AttnArray.lean ====
/-
  The attention region's result array as ONE function of its three input arrays.

  The region's grid has 16·4 points: batch b and query tile qi. At a point the body sees rows 512·qi … 512·qi + 511
  of batch b of the queries, and all 2048 rows of batch b of the keys and of the values, and writes rows
  512·qi … 512·qi + 511 of batch b of the result. So entry (b, r, e) of the result is the row computation of
  query row (b, r) against the 2048 keys of batch b, four key tiles in order (`attnAt`, `attn`). The output blocks of
  the 64 points tile the result array, so after the region the array is `attn` of the three inputs as the region
  found them.
-/
import proofs.«167646_j37890201486074_2_alg».proof.Proof.AttnIndex
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Scores of query row (b, r) against the key rows o … o + 511 of batch b. -/
def sTile (Q K : S16x2048x512.Idx → EReal) (b : Fin 16) (r : Fin 2048) (o : ℕ) (ho : o + 512 ≤ 2048) : Fin 512 → EReal :=
  fun j => ∑ d : Fin 512, Q (ix3 b r d) * K (ix3 b (⟨o + j.val, by have := j.isLt; omega⟩ : Fin 2048) d)

/-- Column e of the value rows o … o + 511 of batch b. -/
def vTile (V : S16x2048x512.Idx → EReal) (b : Fin 16) (e : Fin 512) (o : ℕ) (ho : o + 512 ≤ 2048) : Fin 512 → EReal :=
  fun j => V (ix3 b (⟨o + j.val, by have := j.isLt; omega⟩ : Fin 2048) e)

/-- The row state of query row (b, r), feature e, after the four key tiles. -/
def attnAt (Q K V : S16x2048x512.Idx → EReal) (b : Fin 16) (r : Fin 2048) (e : Fin 512) : EReal × EReal × EReal :=
  rowStep (sTile Q K b r 1536 (by omega)) (vTile V b e 1536 (by omega))
    (rowStep (sTile Q K b r 1024 (by omega)) (vTile V b e 1024 (by omega))
      (rowStep (sTile Q K b r 512 (by omega)) (vTile V b e 512 (by omega))
        (rowStep (sTile Q K b r 0 (by omega)) (vTile V b e 0 (by omega))
          (Ideal.ofBits .f32 0xFF333332#32, 0, 0))))

/-- The attention region's result. -/
def attn (Q K V : S16x2048x512.Idx → EReal) : S16x2048x512.Idx → EReal :=
  fun i => (attnAt Q K V (i 0) (i 1) (i 2)).2.2 * Ideal.div 1 (attnAt Q K V (i 0) (i 1) (i 2)).2.1

variable (V : (c : Dev nD) → (b : Ref sig .tc) → Buf (Elt Ideal) ((c : Thread nD τ).loc b))

/-- The windows' block indices over the grid: the query and result windows move together over (batch, query tile);
    the key and value windows follow the batch only. -/
theorem idx_facts1 : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 15 ∧ win1_3.index t (1 : Fin 3) ≤ 3 ∧ win1_3.index t (2 : Fin 3) = 0 :=
  (by decide +kernel : ∀ t : Fin grid1.N, _)

/-- Every (batch, query tile) is some point's. -/
theorem idx_onto1 : ∀ (q0 : Fin 16) (q1 : Fin 4), ∃ t : Fin cfg1.N, win1_3.index t = ![q0.val, q1.val, 0] :=
  (by decide +kernel : ∀ (q0 : Fin 16) (q1 : Fin 4), ∃ t : Fin grid1.N, win1_3.index t = ![q0.val, q1.val, 0])

/-- What point t writes back is block t of `attn` of the input arrays. -/
theorem attn_flushed (c : Dev nD) (t : Fin cfg1.N) :
    (dat1 (F := Ideal) V c).flushed 3 t
      = ((cfg1.win 3).blk t).view.read (Elt Ideal) (attn (V c main_v0_0) (V c main_v0_1) (V c main_v0_2)) := by
  show (cfg1.win 3).cut (grid1.coords t) ((dat1 (F := Ideal) V c).after 3 t) = _
  rw [after1_3]
  unfold outsAt1
  rw [out_attn]
  obtain ⟨f0, f1, f2, g0, g1, g2, h0, h1, h2, b0, b1, b2⟩ := idx_facts1 t
  funext y
  obtain ⟨u, p, e, rfl⟩ : ∃ (u : Fin 1) (p e : Fin 512), y = ix3 u p e := ⟨y 0, y 1, y 2, eq_ix3 y⟩
  have hu : u.val = 0 := by omega
  have hB : win1_3.index t (0 : Fin 3) < 16 := by omega
  have hR : win1_3.index t (1 : Fin 3) * 512 + p.val < 2048 := by have := p.isLt; omega
  have hi : ((cfg1.win 3).blk t).view.emb (ix3 u p e)
      = ix3 (⟨win1_3.index t (0 : Fin 3), hB⟩ : Fin 16) (⟨win1_3.index t (1 : Fin 3) * 512 + p.val, hR⟩ : Fin 2048) e := by
    funext a; apply Fin.ext
    match a with
    | ⟨0, _⟩ => show win1_3.index t (0 : Fin 3) * 1 + 1 * u.val = win1_3.index t (0 : Fin 3); omega
    | ⟨1, _⟩ => show win1_3.index t (1 : Fin 3) * 512 + 1 * p.val = win1_3.index t (1 : Fin 3) * 512 + p.val; omega
    | ⟨2, _⟩ => show win1_3.index t (2 : Fin 3) * 512 + 1 * e.val = e.val; omega
  show attnBlock (iblk1 V c 0 t) (iblk1 V c 1 t) (iblk1 V c 2 t) (ix3 u p e)
      = attn (V c main_v0_0) (V c main_v0_1) (V c main_v0_2) (((cfg1.win 3).blk t).view.emb (ix3 u p e))
  rw [hi, attnBlock_apply]
  have hq : ∀ d : Fin 512, iblk1 V c 0 t (ix3 (0 : Fin 1) p d)
      = V c main_v0_0 (ix3 (⟨win1_3.index t (0 : Fin 3), hB⟩ : Fin 16) (⟨win1_3.index t (1 : Fin 3) * 512 + p.val, hR⟩ : Fin 2048) d) := fun d => by
    show V c main_v0_0 (((cfg1.win 0).blk t).view.emb (ix3 (0 : Fin 1) p d)) = _
    refine congrArg (V c main_v0_0) (funext fun a => Fin.ext ?_)
    match a with
    | ⟨0, _⟩ => show win1_0.index t (0 : Fin 3) * 1 + 1 * 0 = win1_3.index t (0 : Fin 3); omega
    | ⟨1, _⟩ => show win1_0.index t (1 : Fin 3) * 512 + 1 * p.val = win1_3.index t (1 : Fin 3) * 512 + p.val; omega
    | ⟨2, _⟩ => show win1_0.index t (2 : Fin 3) * 512 + 1 * d.val = d.val; omega
  have hk : ∀ (n : Fin 2048) (d : Fin 512), iblk1 V c 1 t (ix3 (0 : Fin 1) n d)
      = V c main_v0_1 (ix3 (⟨win1_3.index t (0 : Fin 3), hB⟩ : Fin 16) n d) := fun n d => by
    show V c main_v0_1 (((cfg1.win 1).blk t).view.emb (ix3 (0 : Fin 1) n d)) = _
    refine congrArg (V c main_v0_1) (funext fun a => Fin.ext ?_)
    match a with
    | ⟨0, _⟩ => show win1_1.index t (0 : Fin 3) * 1 + 1 * 0 = win1_3.index t (0 : Fin 3); omega
    | ⟨1, _⟩ => show win1_1.index t (1 : Fin 3) * 2048 + 1 * n.val = n.val; omega
    | ⟨2, _⟩ => show win1_1.index t (2 : Fin 3) * 512 + 1 * d.val = d.val; omega
  have hv : ∀ (n : Fin 2048) (d : Fin 512), iblk1 V c 2 t (ix3 (0 : Fin 1) n d)
      = V c main_v0_2 (ix3 (⟨win1_3.index t (0 : Fin 3), hB⟩ : Fin 16) n d) := fun n d => by
    show V c main_v0_2 (((cfg1.win 2).blk t).view.emb (ix3 (0 : Fin 1) n d)) = _
    refine congrArg (V c main_v0_2) (funext fun a => Fin.ext ?_)
    match a with
    | ⟨0, _⟩ => show win1_2.index t (0 : Fin 3) * 1 + 1 * 0 = win1_3.index t (0 : Fin 3); omega
    | ⟨1, _⟩ => show win1_2.index t (1 : Fin 3) * 2048 + 1 * n.val = n.val; omega
    | ⟨2, _⟩ => show win1_2.index t (2 : Fin 3) * 512 + 1 * d.val = d.val; omega
  have hS : ∀ (o : ℕ) (ho : o + 512 ≤ 2048), tileS (iblk1 V c 0 t) (iblk1 V c 1 t) p o ho
      = sTile (V c main_v0_0) (V c main_v0_1) (⟨win1_3.index t (0 : Fin 3), hB⟩ : Fin 16) (⟨win1_3.index t (1 : Fin 3) * 512 + p.val, hR⟩ : Fin 2048) o ho :=
    fun o ho => funext fun j => Finset.sum_congr rfl fun d _ => congrArg₂ (· * ·) (hq d) (hk _ d)
  have hV : ∀ (o : ℕ) (ho : o + 512 ≤ 2048), tileV (iblk1 V c 2 t) e o ho
      = vTile (V c main_v0_2) (⟨win1_3.index t (0 : Fin 3), hB⟩ : Fin 16) e o ho :=
    fun o ho => funext fun j => hv _ e
  have hrows : rows (iblk1 V c 0 t) (iblk1 V c 1 t) (iblk1 V c 2 t) p e
      = attnAt (V c main_v0_0) (V c main_v0_1) (V c main_v0_2) (⟨win1_3.index t (0 : Fin 3), hB⟩ : Fin 16) (⟨win1_3.index t (1 : Fin 3) * 512 + p.val, hR⟩ : Fin 2048) e := by
    unfold rows attnAt
    rw [hS 1536, hS 1024, hS 512, hS 0, hV 1536, hV 1024, hV 512, hV 0]
  rw [hrows]
  rfl

/-- An index is in point t's output block iff each coordinate is in the block's range. -/
theorem mem_blk1 (t : Fin cfg1.N) (i : S16x2048x512.Idx) :
    i ∈ ((cfg1.win 3).blk t).view.set ↔ ∀ a : Fin 3, win1_3.index t a * S1x512x512.size a ≤ (i a).val ∧ (i a).val < win1_3.index t a * S1x512x512.size a + S1x512x512.size a := by
  show i ∈ ((View.whole main_v1).slice (win1_3.rect t)).set ↔ _
  rw [View.set_slice_whole, Rect.mem_set_unit]
  exact Iff.rfl

/-- The output blocks of the grid's points cover the result array. -/
theorem cover1 (i : S16x2048x512.Idx) : ∃ t : Fin cfg1.N, (cfg1.win 3).flush t = true ∧ i ∈ ((cfg1.win 3).blk t).view.set := by
  have hi0 : (i 0).val < 16 := (i 0).isLt
  have hi1 : (i 1).val < 2048 := (i 1).isLt
  have hi2 : (i 2).val < 512 := (i 2).isLt
  obtain ⟨t, ht⟩ := idx_onto1 ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 512 ≤ (i 2).val ∧ (i 2).val < win1_3.index t (2 : Fin 3) * 512 + 512; omega

/-- The result array after the region: `attn` of the three input arrays as the region found them. -/
theorem attn_final (c : Dev nD) :
    (dat1 (F := Ideal) V c).arrAt 3 cfg1.N = attn (V c main_v0_0) (V c main_v0_1) (V c main_v0_2) :=
  (dat1 (F := Ideal) V c).arrAt_eq_of_cover 3 _ (fun t _ => attn_flushed V c t) cover1

end Cert.KernelIdeal.Attn

end
-- ==== Proof.ProjArray.lean ====
/-
  The projection kernel's body and its three result arrays.

  At a grid point (batch b, row tile n) the body holds 1024 rows of x and the whole of one weight matrix W and bias
  vector v, and writes x·W + v for those rows — three times, for the query, key and value weights. Entry (p, e) of an
  output block is Σ_d x(p,d)·W(d,e) + v(e) (`projBlock_apply`); the changes of float format around the product are
  the identity on extended reals. The 16·2 output blocks tile each [16, 2048, 512] result, so after the region each
  result array is `proj x W v`: entry (b, r, e) = Σ_d x(b,r,d)·W(d,e) + v(e).
-/
import proofs.«167646_j37890201486074_2_alg».proof.Proof.Gen.KernelIdeal.Frame
import proofs.«167646_j37890201486074_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Body
variable {F : FTy → Type} [FloatOps F]

/-- One projection of a block of 1024 rows: x·W + v. -/
def projBlock (x : Vec F S1x1024x512 .f32) (w : Vec F S512x512 .f32) (b : Vec F S512 .f32) : FVec F S1x1024x512 .bf16 :=
  shapeCast S1x1024x512
    (truncf .bf16
      (addf
        (matmul dot_S1024x512_S512x512_S1024x512_1_0_0_1_n_n none
          (truncf .bf16 (shapeCast S1024x512 x shapeCasts_S1x1024x512_S1024x512) bitsLt_bf16_f32)
          (truncf .bf16 w bitsLt_bf16_f32) (constant S1024x512 .f32 0x00000000#32))
        (broadcastTo S1024x512 (shapeCast S1x512 b shapeCasts_S512_S1x512) broadcasts_S1x512_S1024x512))
      bitsLt_bf16_f32)
    shapeCasts_S1024x512_S1x1024x512

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The query output block is the projection by the first weight matrix and bias. -/
theorem out7 (x0 : Vec F S1x1024x512 .f32) (x1 : Vec F S512x512 .f32) (x2 : Vec F S512 .f32) (x3 : Vec F S512x512 .f32) (x4 : Vec F S512 .f32) (x5 : Vec F S512x512 .f32) (x6 : Vec F S512 .f32) :
    out0_7 x0 x1 x2 x3 x4 x5 x6 = projBlock x0 x1 x2 := by
  unfold out0_7
  rw [View.canon_unit_zero hz3]
  simp only [View.ld_unit_zero (S := S1x1024x512) hz3, View.ld_unit_zero (S := S512x512) hz2, View.ld_unit_zero (S := S512) hz1]
  rfl

/-- The key output block is the projection by the second weight matrix and bias. -/
theorem out8 (x0 : Vec F S1x1024x512 .f32) (x1 : Vec F S512x512 .f32) (x2 : Vec F S512 .f32) (x3 : Vec F S512x512 .f32) (x4 : Vec F S512 .f32) (x5 : Vec F S512x512 .f32) (x6 : Vec F S512 .f32) :
    out0_8 x0 x1 x2 x3 x4 x5 x6 = projBlock x0 x3 x4 := by
  unfold out0_8
  rw [View.canon_unit_zero hz3]
  simp only [View.ld_unit_zero (S := S1x1024x512) hz3, View.ld_unit_zero (S := S512x512) hz2, View.ld_unit_zero (S := S512) hz1]
  rfl

/-- The value output block is the projection by the third weight matrix and bias. -/
theorem out9 (x0 : Vec F S1x1024x512 .f32) (x1 : Vec F S512x512 .f32) (x2 : Vec F S512 .f32) (x3 : Vec F S512x512 .f32) (x4 : Vec F S512 .f32) (x5 : Vec F S512x512 .f32) (x6 : Vec F S512 .f32) :
    out0_9 x0 x1 x2 x3 x4 x5 x6 = projBlock x0 x5 x6 := by
  unfold out0_9
  rw [View.canon_unit_zero hz3]
  simp only [View.ld_unit_zero (S := S1x1024x512) hz3, View.ld_unit_zero (S := S512x512) hz2, View.ld_unit_zero (S := S512) hz1]
  rfl

end Body

/-- The body's matrix product contracts the rows' features with the weight matrix's rows. -/
theorem dotReads0 : Cert.Lib.PlainDot.Reads (R := 1024) (K := 512) (C := 512) dot_S1024x512_S512x512_S1024x512_1_0_0_1_n_n where
  rank := rfl
  size := rfl
  lhs0 := fun i q => by
    unfold DotDims.lhsIdx
    rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
    rfl
  lhs1 := fun i q => dot_S1024x512_S512x512_S1024x512_1_0_0_1_n_n.lhsIdx_val_of_single rfl i q
  rhs0 := fun i q => dot_S1024x512_S512x512_S1024x512_1_0_0_1_n_n.rhsIdx_val_of_single rfl i q
  rhs1 := fun i q => by
    unfold DotDims.rhsIdx
    rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
    rfl

/-- A projected block read at (p, e). -/
theorem projBlock_apply (x : Vec Ideal S1x1024x512 .f32) (w : Vec Ideal S512x512 .f32) (b : Vec Ideal S512 .f32)
    (u : Fin 1) (p : Fin 1024) (e : Fin 512) :
    projBlock x w b (ix3 u p e) = (∑ d : Fin 512, x (ix3 (0 : Fin 1) p d) * w (ix2 d e)) + b (ix1 e) := by
  unfold projBlock
  refine (shapeCast_ab_1ab_apply _ _ u p e).trans ?_
  show matmul (F := Ideal) dot_S1024x512_S512x512_S1024x512_1_0_0_1_n_n none
        (truncf .bf16 (shapeCast S1024x512 x shapeCasts_S1x1024x512_S1024x512) bitsLt_bf16_f32)
        (truncf .bf16 w bitsLt_bf16_f32) (constant S1024x512 .f32 0x00000000#32) (ix2 p e)
      + broadcastTo S1024x512 (shapeCast S1x512 b shapeCasts_S512_S1x512) broadcasts_S1x512_S1024x512 (ix2 p e) = _
  refine congrArg₂ (· + ·) ?_ ?_
  · refine (Cert.Lib.PlainDot.matmul_zero_apply dotReads0 none _ _ p e).trans ?_
    refine Finset.sum_congr rfl fun d _ => congrArg₂ (· * ·) ?_ rfl
    show shapeCast S1024x512 x shapeCasts_S1x1024x512_S1024x512 (ix2 p d) = _
    exact shapeCast_1ab_ab_apply x _ p d
  · exact (broadcastTo_1b_ab_apply _ _ p e).trans (shapeCast_a_1a_apply b _ 0 e)

/-- Entry (b, r, e) of a projection: Σ_d x(b,r,d)·W(d,e) + v(e). -/
def projAt (x : S16x2048x512.Idx → EReal) (w : S512x512.Idx → EReal) (v : S512.Idx → EReal) (b : Fin 16) (r : Fin 2048) (e : Fin 512) : EReal :=
  (∑ d : Fin 512, x (ix3 b r d) * w (ix2 d e)) + v (ix1 e)

/-- A projection of the whole [16, 2048, 512] array. -/
def proj (x : S16x2048x512.Idx → EReal) (w : S512x512.Idx → EReal) (v : S512.Idx → EReal) : S16x2048x512.Idx → EReal :=
  fun i => projAt x w v (i 0) (i 1) (i 2)

variable (V : (c : Dev nD) → (b : Ref sig .tc) → Buf (Elt Ideal) ((c : Thread nD τ).loc b))

/-- The windows' block indices over the grid: x and the three results move together over (batch, row tile); the
    weights and biases are one block each. -/
theorem idx_facts0 : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_8.index t (0 : Fin 3) = win0_7.index t (0 : Fin 3) ∧ win0_8.index t (1 : Fin 3) = win0_7.index t (1 : Fin 3) ∧ win0_8.index t (2 : Fin 3) = 0
    ∧ win0_9.index t (0 : Fin 3) = win0_7.index t (0 : Fin 3) ∧ win0_9.index t (1 : Fin 3) = win0_7.index t (1 : Fin 3) ∧ win0_9.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 3) ≤ 15 ∧ win0_7.index t (1 : Fin 3) ≤ 1 ∧ win0_7.index t (2 : Fin 3) = 0 :=
  (by decide +kernel : ∀ t : Fin grid0.N, _)

/-- Every (batch, row tile) is some point's, for each of the three results. -/
theorem idx_onto0 : ∀ (q0 : Fin 16) (q1 : Fin 2), ∃ t : Fin cfg0.N, win0_7.index t = ![q0.val, q1.val, 0] ∧ win0_8.index t = ![q0.val, q1.val, 0] ∧ win0_9.index t = ![q0.val, q1.val, 0] :=
  (by decide +kernel : ∀ (q0 : Fin 16) (q1 : Fin 2), ∃ t : Fin grid0.N, win0_7.index t = ![q0.val, q1.val, 0] ∧ win0_8.index t = ![q0.val, q1.val, 0] ∧ win0_9.index t = ![q0.val, q1.val, 0])

/-- The x block of point t at (p, d), and a weight block and a bias block, in terms of the arrays. -/
theorem xblk (c : Dev nD) (t : Fin cfg0.N) (p : Fin 1024) (d : Fin 512) (hB : win0_7.index t (0 : Fin 3) < 16)
    (hR : win0_7.index t (1 : Fin 3) * 1024 + p.val < 2048) :
    iblk0 V c 0 t (ix3 (0 : Fin 1) p d)
      = V c main_arg0 (ix3 (⟨win0_7.index t (0 : Fin 3), hB⟩ : Fin 16) (⟨win0_7.index t (1 : Fin 3) * 1024 + p.val, hR⟩ : Fin 2048) d) := by
  obtain ⟨f0, f1, f2, -⟩ := idx_facts0 t
  show V c main_arg0 (((cfg0.win 0).blk t).view.emb (ix3 (0 : Fin 1) p d)) = _
  refine congrArg (V c main_arg0) (funext fun a => Fin.ext ?_)
  match a with
  | ⟨0, _⟩ => show win0_0.index t (0 : Fin 3) * 1 + 1 * 0 = win0_7.index t (0 : Fin 3); omega
  | ⟨1, _⟩ => show win0_0.index t (1 : Fin 3) * 1024 + 1 * p.val = win0_7.index t (1 : Fin 3) * 1024 + p.val; omega
  | ⟨2, _⟩ => show win0_0.index t (2 : Fin 3) * 512 + 1 * d.val = d.val; omega

theorem wblk1 (c : Dev nD) (t : Fin cfg0.N) (d e : Fin 512) : iblk0 V c 1 t (ix2 d e) = V c main_arg1 (ix2 d e) := by
  obtain ⟨-, -, -, -, -, -, -, -, -, w10, w11, b2, w30, w31, b4, w50, w51, b6, -⟩ := idx_facts0 t
  show V c main_arg1 (((cfg0.win 1).blk t).view.emb (ix2 d e)) = _
  refine congrArg (V c main_arg1) (funext fun a => Fin.ext ?_)
  match a with
  | ⟨0, _⟩ => show win0_1.index t (0 : Fin 2) * 512 + 1 * d.val = d.val; omega
  | ⟨1, _⟩ => show win0_1.index t (1 : Fin 2) * 512 + 1 * e.val = e.val; omega

theorem bblk2 (c : Dev nD) (t : Fin cfg0.N) (e : Fin 512) : iblk0 V c 2 t (ix1 e) = V c main_arg2 (ix1 e) := by
  obtain ⟨-, -, -, -, -, -, -, -, -, w10, w11, b2, w30, w31, b4, w50, w51, b6, -⟩ := idx_facts0 t
  show V c main_arg2 (((cfg0.win 2).blk t).view.emb (ix1 e)) = _
  refine congrArg (V c main_arg2) (funext fun a => Fin.ext ?_)
  match a with
  | ⟨0, _⟩ => show win0_2.index t (0 : Fin 1) * 512 + 1 * e.val = e.val; omega

theorem wblk3 (c : Dev nD) (t : Fin cfg0.N) (d e : Fin 512) : iblk0 V c 3 t (ix2 d e) = V c main_arg3 (ix2 d e) := by
  obtain ⟨-, -, -, -, -, -, -, -, -, w10, w11, b2, w30, w31, b4, w50, w51, b6, -⟩ := idx_facts0 t
  show V c main_arg3 (((cfg0.win 3).blk t).view.emb (ix2 d e)) = _
  refine congrArg (V c main_arg3) (funext fun a => Fin.ext ?_)
  match a with
  | ⟨0, _⟩ => show win0_3.index t (0 : Fin 2) * 512 + 1 * d.val = d.val; omega
  | ⟨1, _⟩ => show win0_3.index t (1 : Fin 2) * 512 + 1 * e.val = e.val; omega

theorem bblk4 (c : Dev nD) (t : Fin cfg0.N) (e : Fin 512) : iblk0 V c 4 t (ix1 e) = V c main_arg4 (ix1 e) := by
  obtain ⟨-, -, -, -, -, -, -, -, -, w10, w11, b2, w30, w31, b4, w50, w51, b6, -⟩ := idx_facts0 t
  show V c main_arg4 (((cfg0.win 4).blk t).view.emb (ix1 e)) = _
  refine congrArg (V c main_arg4) (funext fun a => Fin.ext ?_)
  match a with
  | ⟨0, _⟩ => show win0_4.index t (0 : Fin 1) * 512 + 1 * e.val = e.val; omega

theorem wblk5 (c : Dev nD) (t : Fin cfg0.N) (d e : Fin 512) : iblk0 V c 5 t (ix2 d e) = V c main_arg5 (ix2 d e) := by
  obtain ⟨-, -, -, -, -, -, -, -, -, w10, w11, b2, w30, w31, b4, w50, w51, b6, -⟩ := idx_facts0 t
  show V c main_arg5 (((cfg0.win 5).blk t).view.emb (ix2 d e)) = _
  refine congrArg (V c main_arg5) (funext fun a => Fin.ext ?_)
  match a with
  | ⟨0, _⟩ => show win0_5.index t (0 : Fin 2) * 512 + 1 * d.val = d.val; omega
  | ⟨1, _⟩ => show win0_5.index t (1 : Fin 2) * 512 + 1 * e.val = e.val; omega

theorem bblk6 (c : Dev nD) (t : Fin cfg0.N) (e : Fin 512) : iblk0 V c 6 t (ix1 e) = V c main_arg6 (ix1 e) := by
  obtain ⟨-, -, -, -, -, -, -, -, -, w10, w11, b2, w30, w31, b4, w50, w51, b6, -⟩ := idx_facts0 t
  show V c main_arg6 (((cfg0.win 6).blk t).view.emb (ix1 e)) = _
  refine congrArg (V c main_arg6) (funext fun a => Fin.ext ?_)
  match a with
  | ⟨0, _⟩ => show win0_6.index t (0 : Fin 1) * 512 + 1 * e.val = e.val; omega

/-- What point t writes back to the query result is block t of the projection of the arrays. -/
theorem flushed7 (c : Dev nD) (t : Fin cfg0.N) :
    (dat0 (F := Ideal) V c).flushed 7 t
      = ((cfg0.win 7).blk t).view.read (Elt Ideal) (proj (V c main_arg0) (V c main_arg1) (V c main_arg2)) := by
  show (cfg0.win 7).cut (grid0.coords t) ((dat0 (F := Ideal) V c).after 7 t) = _
  rw [after0_7, out7]
  obtain ⟨f0, f1, f2, g0, g1, g2, h0, h1, h2, -, -, -, -, -, -, -, -, -, b0, b1, b2⟩ := idx_facts0 t
  funext y
  obtain ⟨u, p, e, rfl⟩ : ∃ (u : Fin 1) (p : Fin 1024) (e : Fin 512), y = ix3 u p e := ⟨y 0, y 1, y 2, eq_ix3 y⟩
  have hu : u.val = 0 := by omega
  have hB : win0_7.index t (0 : Fin 3) < 16 := by omega
  have hR : win0_7.index t (1 : Fin 3) * 1024 + p.val < 2048 := by have := p.isLt; omega
  have hi : ((cfg0.win 7).blk t).view.emb (ix3 u p e)
      = ix3 (⟨win0_7.index t (0 : Fin 3), hB⟩ : Fin 16) (⟨win0_7.index t (1 : Fin 3) * 1024 + p.val, hR⟩ : Fin 2048) e := by
    funext a; apply Fin.ext
    match a with
    | ⟨0, _⟩ => show win0_7.index t (0 : Fin 3) * 1 + 1 * u.val = win0_7.index t (0 : Fin 3); omega
    | ⟨1, _⟩ => show win0_7.index t (1 : Fin 3) * 1024 + 1 * p.val = win0_7.index t (1 : Fin 3) * 1024 + p.val; omega
    | ⟨2, _⟩ => show win0_7.index t (2 : Fin 3) * 512 + 1 * e.val = e.val; omega
  show projBlock (iblk0 V c 0 t) (iblk0 V c 1 t) (iblk0 V c 2 t) (ix3 u p e)
      = proj (V c main_arg0) (V c main_arg1) (V c main_arg2) (((cfg0.win 7).blk t).view.emb (ix3 u p e))
  rw [hi, projBlock_apply]
  show _ = projAt (V c main_arg0) (V c main_arg1) (V c main_arg2) (⟨win0_7.index t (0 : Fin 3), hB⟩ : Fin 16) (⟨win0_7.index t (1 : Fin 3) * 1024 + p.val, hR⟩ : Fin 2048) e
  unfold projAt
  refine congrArg₂ (· + ·) (Finset.sum_congr rfl fun d _ => congrArg₂ (· * ·) (xblk V c t p d hB hR) (wblk1 V c t d e)) (bblk2 V c t e)

theorem mem_blk7 (t : Fin cfg0.N) (i : S16x2048x512.Idx) :
    i ∈ ((cfg0.win 7).blk t).view.set ↔ ∀ a : Fin 3, win0_7.index t a * S1x1024x512.size a ≤ (i a).val ∧ (i a).val < win0_7.index t a * S1x1024x512.size a + S1x1024x512.size a := by
  show i ∈ ((View.whole main_v0_0).slice (win0_7.rect t)).set ↔ _
  rw [View.set_slice_whole, Rect.mem_set_unit]
  exact Iff.rfl

theorem cover7 (i : S16x2048x512.Idx) : ∃ t : Fin cfg0.N, (cfg0.win 7).flush t = true ∧ i ∈ ((cfg0.win 7).blk t).view.set := by
  have hi0 : (i 0).val < 16 := (i 0).isLt
  have hi1 : (i 1).val < 2048 := (i 1).isLt
  have hi2 : (i 2).val < 512 := (i 2).isLt
  obtain ⟨t, ht7, ht8, ht9⟩ := idx_onto0 ⟨(i 0).val, hi0⟩ ⟨(i 1).val / 1024, by omega⟩
  have q0 : win0_7.index t (0 : Fin 3) = (i 0).val := congrFun ht7 0
  have q1 : win0_7.index t (1 : Fin 3) = (i 1).val / 1024 := congrFun ht7 1
  have q2 : win0_7.index t (2 : Fin 3) = 0 := congrFun ht7 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 512 ≤ (i 2).val ∧ (i 2).val < win0_7.index t (2 : Fin 3) * 512 + 512; omega

/-- The query result array after the region. -/
theorem final7 (c : Dev nD) :
    (dat0 (F := Ideal) V c).arrAt 7 cfg0.N = proj (V c main_arg0) (V c main_arg1) (V c main_arg2) :=
  (dat0 (F := Ideal) V c).arrAt_eq_of_cover 7 _ (fun t _ => flushed7 V c t) cover7

/-- What point t writes back to the key result is block t of the projection of the arrays. -/
theorem flushed8 (c : Dev nD) (t : Fin cfg0.N) :
    (dat0 (F := Ideal) V c).flushed 8 t
      = ((cfg0.win 8).blk t).view.read (Elt Ideal) (proj (V c main_arg0) (V c main_arg3) (V c main_arg4)) := by
  show (cfg0.win 8).cut (grid0.coords t) ((dat0 (F := Ideal) V c).after 8 t) = _
  rw [after0_8, out8]
  obtain ⟨f0, f1, f2, g0, g1, g2, h0, h1, h2, -, -, -, -, -, -, -, -, -, b0, b1, b2⟩ := idx_facts0 t
  funext y
  obtain ⟨u, p, e, rfl⟩ : ∃ (u : Fin 1) (p : Fin 1024) (e : Fin 512), y = ix3 u p e := ⟨y 0, y 1, y 2, eq_ix3 y⟩
  have hu : u.val = 0 := by omega
  have hB : win0_7.index t (0 : Fin 3) < 16 := by omega
  have hR : win0_7.index t (1 : Fin 3) * 1024 + p.val < 2048 := by have := p.isLt; omega
  have hi : ((cfg0.win 8).blk t).view.emb (ix3 u p e)
      = ix3 (⟨win0_7.index t (0 : Fin 3), hB⟩ : Fin 16) (⟨win0_7.index t (1 : Fin 3) * 1024 + p.val, hR⟩ : Fin 2048) e := by
    funext a; apply Fin.ext
    match a with
    | ⟨0, _⟩ => show win0_8.index t (0 : Fin 3) * 1 + 1 * u.val = win0_7.index t (0 : Fin 3); omega
    | ⟨1, _⟩ => show win0_8.index t (1 : Fin 3) * 1024 + 1 * p.val = win0_7.index t (1 : Fin 3) * 1024 + p.val; omega
    | ⟨2, _⟩ => show win0_8.index t (2 : Fin 3) * 512 + 1 * e.val = e.val; omega
  show projBlock (iblk0 V c 0 t) (iblk0 V c 3 t) (iblk0 V c 4 t) (ix3 u p e)
      = proj (V c main_arg0) (V c main_arg3) (V c main_arg4) (((cfg0.win 8).blk t).view.emb (ix3 u p e))
  rw [hi, projBlock_apply]
  show _ = projAt (V c main_arg0) (V c main_arg3) (V c main_arg4) (⟨win0_7.index t (0 : Fin 3), hB⟩ : Fin 16) (⟨win0_7.index t (1 : Fin 3) * 1024 + p.val, hR⟩ : Fin 2048) e
  unfold projAt
  refine congrArg₂ (· + ·) (Finset.sum_congr rfl fun d _ => congrArg₂ (· * ·) (xblk V c t p d hB hR) (wblk3 V c t d e)) (bblk4 V c t e)

theorem mem_blk8 (t : Fin cfg0.N) (i : S16x2048x512.Idx) :
    i ∈ ((cfg0.win 8).blk t).view.set ↔ ∀ a : Fin 3, win0_8.index t a * S1x1024x512.size a ≤ (i a).val ∧ (i a).val < win0_8.index t a * S1x1024x512.size a + S1x1024x512.size a := by
  show i ∈ ((View.whole main_v0_1).slice (win0_8.rect t)).set ↔ _
  rw [View.set_slice_whole, Rect.mem_set_unit]
  exact Iff.rfl

theorem cover8 (i : S16x2048x512.Idx) : ∃ t : Fin cfg0.N, (cfg0.win 8).flush t = true ∧ i ∈ ((cfg0.win 8).blk t).view.set := by
  have hi0 : (i 0).val < 16 := (i 0).isLt
  have hi1 : (i 1).val < 2048 := (i 1).isLt
  have hi2 : (i 2).val < 512 := (i 2).isLt
  obtain ⟨t, ht7, ht8, ht9⟩ := idx_onto0 ⟨(i 0).val, hi0⟩ ⟨(i 1).val / 1024, by omega⟩
  have q0 : win0_8.index t (0 : Fin 3) = (i 0).val := congrFun ht8 0
  have q1 : win0_8.index t (1 : Fin 3) = (i 1).val / 1024 := congrFun ht8 1
  have q2 : win0_8.index t (2 : Fin 3) = 0 := congrFun ht8 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 512 ≤ (i 2).val ∧ (i 2).val < win0_8.index t (2 : Fin 3) * 512 + 512; omega

/-- The key result array after the region. -/
theorem final8 (c : Dev nD) :
    (dat0 (F := Ideal) V c).arrAt 8 cfg0.N = proj (V c main_arg0) (V c main_arg3) (V c main_arg4) :=
  (dat0 (F := Ideal) V c).arrAt_eq_of_cover 8 _ (fun t _ => flushed8 V c t) cover8

/-- What point t writes back to the value result is block t of the projection of the arrays. -/
theorem flushed9 (c : Dev nD) (t : Fin cfg0.N) :
    (dat0 (F := Ideal) V c).flushed 9 t
      = ((cfg0.win 9).blk t).view.read (Elt Ideal) (proj (V c main_arg0) (V c main_arg5) (V c main_arg6)) := by
  show (cfg0.win 9).cut (grid0.coords t) ((dat0 (F := Ideal) V c).after 9 t) = _
  rw [after0_9, out9]
  obtain ⟨f0, f1, f2, g0, g1, g2, h0, h1, h2, -, -, -, -, -, -, -, -, -, b0, b1, b2⟩ := idx_facts0 t
  funext y
  obtain ⟨u, p, e, rfl⟩ : ∃ (u : Fin 1) (p : Fin 1024) (e : Fin 512), y = ix3 u p e := ⟨y 0, y 1, y 2, eq_ix3 y⟩
  have hu : u.val = 0 := by omega
  have hB : win0_7.index t (0 : Fin 3) < 16 := by omega
  have hR : win0_7.index t (1 : Fin 3) * 1024 + p.val < 2048 := by have := p.isLt; omega
  have hi : ((cfg0.win 9).blk t).view.emb (ix3 u p e)
      = ix3 (⟨win0_7.index t (0 : Fin 3), hB⟩ : Fin 16) (⟨win0_7.index t (1 : Fin 3) * 1024 + p.val, hR⟩ : Fin 2048) e := by
    funext a; apply Fin.ext
    match a with
    | ⟨0, _⟩ => show win0_9.index t (0 : Fin 3) * 1 + 1 * u.val = win0_7.index t (0 : Fin 3); omega
    | ⟨1, _⟩ => show win0_9.index t (1 : Fin 3) * 1024 + 1 * p.val = win0_7.index t (1 : Fin 3) * 1024 + p.val; omega
    | ⟨2, _⟩ => show win0_9.index t (2 : Fin 3) * 512 + 1 * e.val = e.val; omega
  show projBlock (iblk0 V c 0 t) (iblk0 V c 5 t) (iblk0 V c 6 t) (ix3 u p e)
      = proj (V c main_arg0) (V c main_arg5) (V c main_arg6) (((cfg0.win 9).blk t).view.emb (ix3 u p e))
  rw [hi, projBlock_apply]
  show _ = projAt (V c main_arg0) (V c main_arg5) (V c main_arg6) (⟨win0_7.index t (0 : Fin 3), hB⟩ : Fin 16) (⟨win0_7.index t (1 : Fin 3) * 1024 + p.val, hR⟩ : Fin 2048) e
  unfold projAt
  refine congrArg₂ (· + ·) (Finset.sum_congr rfl fun d _ => congrArg₂ (· * ·) (xblk V c t p d hB hR) (wblk5 V c t d e)) (bblk6 V c t e)

theorem mem_blk9 (t : Fin cfg0.N) (i : S16x2048x512.Idx) :
    i ∈ ((cfg0.win 9).blk t).view.set ↔ ∀ a : Fin 3, win0_9.index t a * S1x1024x512.size a ≤ (i a).val ∧ (i a).val < win0_9.index t a * S1x1024x512.size a + S1x1024x512.size a := by
  show i ∈ ((View.whole main_v0_2).slice (win0_9.rect t)).set ↔ _
  rw [View.set_slice_whole, Rect.mem_set_unit]
  exact Iff.rfl

theorem cover9 (i : S16x2048x512.Idx) : ∃ t : Fin cfg0.N, (cfg0.win 9).flush t = true ∧ i ∈ ((cfg0.win 9).blk t).view.set := by
  have hi0 : (i 0).val < 16 := (i 0).isLt
  have hi1 : (i 1).val < 2048 := (i 1).isLt
  have hi2 : (i 2).val < 512 := (i 2).isLt
  obtain ⟨t, ht7, ht8, ht9⟩ := idx_onto0 ⟨(i 0).val, hi0⟩ ⟨(i 1).val / 1024, by omega⟩
  have q0 : win0_9.index t (0 : Fin 3) = (i 0).val := congrFun ht9 0
  have q1 : win0_9.index t (1 : Fin 3) = (i 1).val / 1024 := congrFun ht9 1
  have q2 : win0_9.index t (2 : Fin 3) = 0 := congrFun ht9 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 512 ≤ (i 2).val ∧ (i 2).val < win0_9.index t (2 : Fin 3) * 512 + 512; omega

/-- The value result array after the region. -/
theorem final9 (c : Dev nD) :
    (dat0 (F := Ideal) V c).arrAt 9 cfg0.N = proj (V c main_arg0) (V c main_arg5) (V c main_arg6) :=
  (dat0 (F := Ideal) V c).arrAt_eq_of_cover 9 _ (fun t _ => flushed9 V c t) cover9

end Cert.KernelIdeal.Proj

end
-- ==== Proof.KernelRun.lean ====
/-
  The idealized kernel's run with its result named.

  The program is two regions in a row. The first leaves the three projections q = x·Wq + bq, k = x·Wk + bk,
  v = x·Wv + bv in three intermediate arrays; the second reads them and leaves the attention result. So after the
  run the result buffer holds `attn (proj x Wq bq) (proj x Wk bk) (proj x Wv bv)` of the argument arrays as launched,
  and the arguments are unchanged. The buffer contents at the two region boundaries are the generated frame's
  (its fold through the regions); this file reads the result buffer off that fold and restates the launch with the
  result buffer among the buffers read back at the end.
-/
import proofs.«167646_j37890201486074_2_alg».proof.Proof.Gen.KernelIdeal.Frame
import proofs.«167646_j37890201486074_2_alg».proof.Proof.AttnArray
import proofs.«167646_j37890201486074_2_alg».proof.Proof.ProjArray

set_option maxRecDepth 16384

noncomputable section

namespace Cert.KernelIdeal.Run

open Cert.KernelIdeal Cert.KernelIdeal.Gen Cert.KernelIdeal.Attn Cert.KernelIdeal.Proj
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The result as a function of the argument arrays as launched. -/
def result (c : Dev nD) : S16x2048x512.Idx → EReal :=
  attn (proj (m ((c : Thread nD τ).loc main_arg0)) (m ((c : Thread nD τ).loc main_arg1)) (m ((c : Thread nD τ).loc main_arg2)))
    (proj (m ((c : Thread nD τ).loc main_arg0)) (m ((c : Thread nD τ).loc main_arg3)) (m ((c : Thread nD τ).loc main_arg4)))
    (proj (m ((c : Thread nD τ).loc main_arg0)) (m ((c : Thread nD τ).loc main_arg5)) (m ((c : Thread nD τ).loc main_arg6)))

/-- After the first region the three intermediate arrays hold the projections. -/
theorem V1_q (c : Dev nD) : V1 (F := Ideal) m ρ c main_v0_0
    = proj (m ((c : Thread nD τ).loc main_arg0)) (m ((c : Thread nD τ).loc main_arg1)) (m ((c : Thread nD τ).loc main_arg2)) :=
  (W1_arr m ρ c 7).trans (final7 (V0 m ρ) c)
theorem V1_k (c : Dev nD) : V1 (F := Ideal) m ρ c main_v0_1
    = proj (m ((c : Thread nD τ).loc main_arg0)) (m ((c : Thread nD τ).loc main_arg3)) (m ((c : Thread nD τ).loc main_arg4)) :=
  (W1_arr m ρ c 8).trans (final8 (V0 m ρ) c)
theorem V1_v (c : Dev nD) : V1 (F := Ideal) m ρ c main_v0_2
    = proj (m ((c : Thread nD τ).loc main_arg0)) (m ((c : Thread nD τ).loc main_arg5)) (m ((c : Thread nD τ).loc main_arg6)) :=
  (W1_arr m ρ c 9).trans (final9 (V0 m ρ) c)

/-- After the second region the result buffer holds the attention of the three projections. -/
theorem W2_result (c : Dev nD) : W2 (F := Ideal) m ρ c (Proc.devRef .tc main_v1) = result m c := by
  refine (W2_arr m ρ c 3).trans ?_
  refine (attn_final (V1 m ρ) c).trans ?_
  unfold result
  rw [V1_q, V1_k, V1_v]

-- the launch theorem's implicit arguments are found by unifying its conclusion with this one, which takes unfolding
-- plain definitions in a metavariable's type
set_option backward.isDefEq.respectTransparency.types false in
/-- Every weakly fair execution of the idealized kernel terminates, nothing faulting, with the result buffer at
    `result` of the launch memory and every argument array as launched. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_result m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c)⟩)

end Cert.KernelIdeal.Run

end
-- ==== Proof.SoftSpec.lean ====
/-
  The reference's attention entry as a formula: for query, key and value arrays Q, K, V of shape [16, 2048, 512],
  the score of query row (b, r) against key row (b, k) is Σ_d Q(b,r,d)·K(b,k,d); the row maximum is the maximum with
  -∞ of the maximum over the 2048 keys from -∞; and entry (b, r, e) of the result is
  Σ_k exp(score - max) / (0 + Σ_k' exp(score' - max)) · V(b,k,e).
-/
import Idealize.ShloMosaic.Lib.ValueIdx
import Idealize.ShloMosaic.PureOps.Ideal

noncomputable section

namespace Cert.RefValue

open Idealize.ShloMosaic Idealize.ShloMosaic.ValueIdx

abbrev A3 := (⟨3, ![16, 2048, 512]⟩ : Shape).Idx → EReal
abbrev A2 := (⟨2, ![512, 512]⟩ : Shape).Idx → EReal
abbrev A1 := (⟨1, ![512]⟩ : Shape).Idx → EReal

/-- The score of query row (b, r) against key row (b, k). -/
def score (Q K : A3) (b : Fin 16) (r k : Fin 2048) : EReal := ∑ d : Fin 512, Q (ix3 b r d) * K (ix3 b k d)

/-- The reference's row maximum: the maximum with -∞ of the maximum over the keys from -∞. -/
def refMaxAt (Q K : A3) (b : Fin 16) (r : Fin 2048) : EReal :=
  max ⊥ (Finset.univ.fold max ⊥ (fun k : Fin 2048 => score Q K b r k))

/-- The reference's entry (b, r, e). -/
def softAt (Q K V : A3) (b : Fin 16) (r : Fin 2048) (e : Fin 512) : EReal :=
  ∑ k : Fin 2048, Ideal.div (Ideal.exp (score Q K b r k - refMaxAt Q K b r))
      (0 + ∑ k' : Fin 2048, Ideal.exp (score Q K b r k' - refMaxAt Q K b r)) * V (ix3 b k e)

end Cert.RefValue

end
-- ==== Proof.RefValue.lean ====
/-
  The reference read entry by entry, over the extended reals.

  The reference forms q, k, v = x·W + bias (three products with a broadcast bias), the scores S = q·kᵀ per batch, the
  row maxima M (a maximum with -∞ of a reduction that starts at -∞), the exponentials exp(S - M), their row sums Z
  (a sum that starts at 0), the quotients exp(S - M)/Z, and the product of those with v. So the entry (b, r, e) of its
  result is Σ_k exp(S(b,r,k) - M(b,r)) / (0 + Σ_k' exp(S(b,r,k') - M(b,r))) · v(b,k,e)  (`softAt`), where
  S(b,r,k) = Σ_d q(b,r,d)·k(b,k,d) and q, k, v are the projections `proj x W bias`.
-/
import proofs.«167646_j37890201486074_2_alg».proof.Proof.Gen.ReferenceIdeal.Read
import proofs.«167646_j37890201486074_2_alg».proof.Proof.Words
import proofs.«167646_j37890201486074_2_alg».proof.Proof.SoftSpec
import proofs.«167646_j37890201486074_2_alg».proof.Proof.ProjArray
import Idealize.ShloMosaic.Lib.ValueIdx
import Idealize.ShloMosaic.PureOps.Ideal.Laws
import Idealize.ShloMosaic.PureOps.Reduce

set_option maxRecDepth 16384

noncomputable section

namespace Cert.RefValue

open Cert.ReferenceIdeal Cert.ReferenceIdeal.Gen Cert.ReferenceIdeal.Read
open Idealize.ShloMosaic Idealize.ShloMosaic.ValueIdx
open Cert.KernelIdeal.Proj (proj projAt)

/-- A product with a broadcast bias is the projection. -/
theorem ref_q (x0 : A3) (x1 : A2) (x2 : A1) : val_main_v3 (F := Ideal) x0 x1 x2 = proj x0 x1 x2 := by
  funext i
  obtain ⟨b, r, e, rfl⟩ : ∃ (b : Fin 16) (r : Fin 2048) (e : Fin 512), i = ix3 b r e := ⟨i 0, i 1, i 2, eq_ix3 i⟩
  show val_main_v0 (F := Ideal) x0 x1 (ix3 b r e) + val_main_v2 (F := Ideal) x2 (ix3 b r e) = projAt x0 x1 x2 b r e
  rw [val_main_v0_apply, val_main_v2_apply, val_main_v1_apply]
  unfold projAt
  refine congrArg₂ (· + ·) (Finset.sum_congr rfl fun d _ => congrArg₂ (· * ·) (congrArg x0 ?_) (congrArg x1 ?_)) (congrArg x2 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

theorem ref_k (x0 : A3) (x3 : A2) (x4 : A1) : val_main_v7 (F := Ideal) x0 x3 x4 = proj x0 x3 x4 := by
  funext i
  obtain ⟨b, r, e, rfl⟩ : ∃ (b : Fin 16) (r : Fin 2048) (e : Fin 512), i = ix3 b r e := ⟨i 0, i 1, i 2, eq_ix3 i⟩
  show val_main_v4 (F := Ideal) x0 x3 (ix3 b r e) + val_main_v6 (F := Ideal) x4 (ix3 b r e) = projAt x0 x3 x4 b r e
  rw [val_main_v4_apply, val_main_v6_apply, val_main_v5_apply]
  unfold projAt
  refine congrArg₂ (· + ·) (Finset.sum_congr rfl fun d _ => congrArg₂ (· * ·) (congrArg x0 ?_) (congrArg x3 ?_)) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

theorem ref_v (x0 : A3) (x5 : A2) (x6 : A1) : val_main_v11 (F := Ideal) x0 x5 x6 = proj x0 x5 x6 := by
  funext i
  obtain ⟨b, r, e, rfl⟩ : ∃ (b : Fin 16) (r : Fin 2048) (e : Fin 512), i = ix3 b r e := ⟨i 0, i 1, i 2, eq_ix3 i⟩
  show val_main_v8 (F := Ideal) x0 x5 (ix3 b r e) + val_main_v10 (F := Ideal) x6 (ix3 b r e) = projAt x0 x5 x6 b r e
  rw [val_main_v8_apply, val_main_v10_apply, val_main_v9_apply]
  unfold projAt
  refine congrArg₂ (· + ·) (Finset.sum_congr rfl fun d _ => congrArg₂ (· * ·) (congrArg x0 ?_) (congrArg x5 ?_)) (congrArg x6 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The host's reduction by maximum over the last axis from -∞, read at (b, r): the maximum over the keys. Stated
    for any array, so that nothing of the array is opened. -/
theorem hostMax_apply (y : FVec Ideal S16x2048x2048 .f32) (b : Fin 16) (r : Fin 2048) :
    Host.reduce FloatOps.maximumf y (val_main_cst (F := Ideal)) reducesTo_S16x2048x2048_S16x2048_d2 h_S_ (ix2 b r)
      = Finset.univ.fold max ⊥ (fun k : Fin 2048 => y (ix3 b r k)) := by
  refine (Host.reduce_eq_fold_single FloatOps.maximumf y _ reducesTo_S16x2048x2048_S16x2048_d2 (by decide) h_S_ (ix2 b r)).trans ?_
  show (Finset.univ : Finset (Fin 2048)).fold max (Ideal.ofBits .f32 0xFF800000#32)
      (fun k => y ((by decide : S16x2048x2048.Reduces [2] S16x2048).lift (ix2 b r) k)) = _
  rw [Cert.Words.neg_inf]
  refine congrArg (fun f => (Finset.univ : Finset (Fin 2048)).fold max (⊥ : EReal) f) (funext fun k => congrArg y ?_)
  exact funext fun a => Fin.ext (by match a with | ⟨0, _⟩ => rfl | ⟨1, _⟩ => rfl | ⟨2, _⟩ => rfl)

section Tail
variable (x0 : A3) (x1 : A2) (x2 : A1) (x3 : A2) (x4 : A1)

/-- The scores. -/
theorem ref_s (b : Fin 16) (r k : Fin 2048) :
    val_main_v12 (F := Ideal) x0 x1 x2 x3 x4 (ix3 b r k) = score (proj x0 x1 x2) (proj x0 x3 x4) b r k := by
  rw [val_main_v12_apply, ref_q, ref_k]
  unfold score
  refine Finset.sum_congr rfl fun d _ => congrArg₂ (· * ·) (congrArg (proj x0 x1 x2) ?_) (congrArg (proj x0 x3 x4) ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- The row maxima. -/
theorem ref_max (b : Fin 16) (r : Fin 2048) :
    val_main_v15 (F := Ideal) x0 x1 x2 x3 x4 (ix2 b r) = refMaxAt (proj x0 x1 x2) (proj x0 x3 x4) b r := by
  have h14 : val_main_v14 (F := Ideal) (ix2 b r) = (⊥ : EReal) := by
    rw [val_main_v14_apply, val_main_cst_0_apply, Ideal.ofBits_def]
    exact Cert.Words.neg_inf
  have h13 : val_main_v13 (F := Ideal) x0 x1 x2 x3 x4 (ix2 b r)
      = Finset.univ.fold max ⊥ (fun k : Fin 2048 => score (proj x0 x1 x2) (proj x0 x3 x4) b r k) := by
    unfold val_main_v13
    rw [hostMax_apply]
    exact congrArg (fun f => (Finset.univ : Finset (Fin 2048)).fold max (⊥ : EReal) f) (funext fun k => ref_s x0 x1 x2 x3 x4 b r k)
  rw [val_main_v15_apply, h14, h13, Ideal.maximumf_def]
  rfl

/-- The exponentials. -/
theorem ref_e (b : Fin 16) (r k : Fin 2048) :
    val_main_v19 (F := Ideal) x0 x1 x2 x3 x4 (ix3 b r k)
      = Ideal.exp (score (proj x0 x1 x2) (proj x0 x3 x4) b r k - refMaxAt (proj x0 x1 x2) (proj x0 x3 x4) b r) := by
  show Ideal.exp (val_main_v12 (F := Ideal) x0 x1 x2 x3 x4 (ix3 b r k) - val_main_v17 (F := Ideal) x0 x1 x2 x3 x4 (ix3 b r k)) = _
  rw [ref_s, val_main_v17_apply, val_main_v16_apply]
  refine congrArg (fun z => Ideal.exp (score (proj x0 x1 x2) (proj x0 x3 x4) b r k - z)) ?_
  refine Eq.trans (congrArg (val_main_v15 (F := Ideal) x0 x1 x2 x3 x4) ?_) (ref_max x0 x1 x2 x3 x4 b r)
  exact funext fun a => Fin.ext (by match a with | ⟨0, _⟩ => rfl | ⟨1, _⟩ => rfl)

/-- The row sums, broadcast back. -/
theorem ref_z (b : Fin 16) (r k : Fin 2048) :
    val_main_v22 (F := Ideal) x0 x1 x2 x3 x4 (ix3 b r k)
      = 0 + ∑ k' : Fin 2048, Ideal.exp (score (proj x0 x1 x2) (proj x0 x3 x4) b r k' - refMaxAt (proj x0 x1 x2) (proj x0 x3 x4) b r) := by
  rw [val_main_v22_apply, val_main_v21_apply, val_main_v20_apply]
  refine congrArg₂ (· + ·) ?_ (Finset.sum_congr rfl fun k' _ => ?_)
  · rw [val_main_cst_1_apply]
    exact Ideal.ofBits_zero_f32
  · refine Eq.trans (congrArg (val_main_v19 (F := Ideal) x0 x1 x2 x3 x4) ?_) (ref_e x0 x1 x2 x3 x4 b r k')
    exact funext fun a => Fin.ext (by match a with | ⟨0, _⟩ => rfl | ⟨1, _⟩ => rfl | ⟨2, _⟩ => rfl)

/-- The softmax weights. -/
theorem ref_p (b : Fin 16) (r k : Fin 2048) :
    val_main_v23 (F := Ideal) x0 x1 x2 x3 x4 (ix3 b r k)
      = Ideal.div (Ideal.exp (score (proj x0 x1 x2) (proj x0 x3 x4) b r k - refMaxAt (proj x0 x1 x2) (proj x0 x3 x4) b r))
          (0 + ∑ k' : Fin 2048, Ideal.exp (score (proj x0 x1 x2) (proj x0 x3 x4) b r k' - refMaxAt (proj x0 x1 x2) (proj x0 x3 x4) b r)) := by
  show Ideal.div (val_main_v19 (F := Ideal) x0 x1 x2 x3 x4 (ix3 b r k)) (val_main_v22 (F := Ideal) x0 x1 x2 x3 x4 (ix3 b r k)) = _
  rw [ref_e, ref_z]

end Tail

/-- The reference's result, entry by entry. -/
theorem ref_out (x0 : A3) (x1 : A2) (x2 : A1) (x3 : A2) (x4 : A1) (x5 : A2) (x6 : A1) (b : Fin 16) (r : Fin 2048) (e : Fin 512) :
    val_main_v24 (F := Ideal) x0 x1 x2 x3 x4 x5 x6 (ix3 b r e)
      = softAt (proj x0 x1 x2) (proj x0 x3 x4) (proj x0 x5 x6) b r e := by
  rw [val_main_v24_apply, ref_v]
  unfold softAt
  refine Finset.sum_congr rfl fun k _ => congrArg₂ (· * ·) ?_ (congrArg (proj x0 x5 x6) ?_)
  · refine Eq.trans (congrArg (val_main_v23 (F := Ideal) x0 x1 x2 x3 x4) ?_) (ref_p x0 x1 x2 x3 x4 b r k)
    exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

end Cert.RefValue

end
-- ==== Proof.LibOnlineSoftmax.lean ====
import Idealize.ShloMosaic.PureOps.Ideal
import Mathlib.Algebra.BigOperators.Fin
import Mathlib.Tactic.FieldSimp
import Mathlib.Tactic.Ring
import Mathlib.Tactic.Linarith

/-!
  # The online softmax agrees with the plain softmax over the extended reals

  A tiled attention kernel walks the scores of a row in tiles. It keeps a running maximum m, a running sum l and a
  running weighted sum a, and a tile with scores s and values v updates them to
    m' = max m (max s),   l' = exp (m - m') * l + ∑ j, exp (s j - m'),   a' = exp (m - m') * a + ∑ j, exp (s j - m') * v j;
  after the last tile the value is a * (1 / l). The reference computes ∑ exp (s - M) / (∑ exp (s - M)) * v at one shift M.

  With REAL scores and values, and a real starting maximum, the two agree over the extended reals. The reason is the
  one identity exp (x - μ') = exp (μ - μ') * exp (x - μ) of real numbers: call a function F of the shift COVARIANT when
  exp (μ - μ') * F μ = F μ' for all real μ, μ'. Then μ ↦ ∑ j, exp (s j - μ) and μ ↦ ∑ j, exp (s j - μ) * v j are covariant,
  sums of covariant functions are covariant, and a tile sends a state (μ, L μ, A μ) with L and A covariant to the state
  (μ', L' μ', A' μ') with L' = L + (the tile's sum) and A' = A + (the tile's weighted sum). So after all tiles the state is
  (μ, L μ, A μ) for the full sums L and A at SOME real shift μ, and A μ / L μ = A M / L M for every real M because the
  factor exp (M - μ) cancels. Nothing is used of the running maxima except that they are real numbers, which holds
  because a maximum of finitely many (and at least one) real numbers is a real number.
-/

noncomputable section

namespace Cert.Lib.OnlineSoftmax

open Idealize.ShloMosaic
open scoped BigOperators

variable {n : ℕ}

/-- One tile. State = (running max, running sum, running weighted sum). -/
def step (s v : Fin n → EReal) (st : EReal × EReal × EReal) : EReal × EReal × EReal :=
  (max st.1 (Finset.univ.fold max ⊥ s),
   Ideal.exp (st.1 - max st.1 (Finset.univ.fold max ⊥ s)) * st.2.1 + ∑ j, Ideal.exp (s j - max st.1 (Finset.univ.fold max ⊥ s)),
   Ideal.exp (st.1 - max st.1 (Finset.univ.fold max ⊥ s)) * st.2.2 + ∑ j, Ideal.exp (s j - max st.1 (Finset.univ.fold max ⊥ s)) * v j)

/-- The plain softmax-weighted sum at shift M, summed tile by tile. -/
def soft (s v : Fin 4 → Fin n → EReal) (M : EReal) : EReal :=
  ∑ t, ∑ j, Ideal.div (Ideal.exp (s t j - M)) (0 + ∑ t', ∑ j', Ideal.exp (s t' j' - M)) * v t j

/-! ### Finite sums and maxima of real numbers, seen in the extended reals -/

/-- The coercion of a finite sum of reals is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The coercion of a maximum of two reals is the maximum of the coercions. -/
theorem coe_max (a b : ℝ) : ((max a b : ℝ) : EReal) = max (a : EReal) (b : EReal) :=
  EReal.coe_strictMono.monotone.map_max

/-- The maximum of a nonempty finite family of reals, folded from the bottom, is a real. -/
theorem fold_max_coe {ι : Type*} (s : ι → ℝ) (S : Finset ι) (hS : S.Nonempty) :
    ∃ r : ℝ, S.fold max (⊥ : EReal) (fun j => (s j : EReal)) = (r : EReal) := by
  classical
  induction S using Finset.induction_on with
  | empty => exact absurd hS Finset.not_nonempty_empty
  | insert a S ha ih =>
    rw [Finset.fold_insert ha]
    rcases S.eq_empty_or_nonempty with rfl | hS'
    · exact ⟨s a, by simp⟩
    · obtain ⟨r, hr⟩ := ih hS'
      exact ⟨max (s a) r, by rw [hr, coe_max]⟩

theorem fold_max_real (hn : 0 < n) (s : Fin n → ℝ) :
    ∃ r : ℝ, Finset.univ.fold max (⊥ : EReal) (fun j => (s j : EReal)) = (r : EReal) :=
  fold_max_coe s Finset.univ ⟨⟨0, hn⟩, Finset.mem_univ _⟩

/-! ### Covariant functions of the shift -/

/-- A tile's sum of exponentials at shift μ. -/
def tileL (s : Fin n → ℝ) (μ : ℝ) : ℝ := ∑ j, Real.exp (s j - μ)

/-- A tile's weighted sum of exponentials at shift μ. -/
def tileA (s v : Fin n → ℝ) (μ : ℝ) : ℝ := ∑ j, Real.exp (s j - μ) * v j

/-- F is covariant: moving the shift from μ to μ' multiplies it by exp (μ - μ'). -/
def Cov (F : ℝ → ℝ) : Prop := ∀ μ μ' : ℝ, Real.exp (μ - μ') * F μ = F μ'

theorem cov_zero : Cov (fun _ => (0 : ℝ)) := fun _ _ => mul_zero _

theorem cov_add {F G : ℝ → ℝ} (hF : Cov F) (hG : Cov G) : Cov (fun μ => F μ + G μ) := fun μ μ' => by
  show Real.exp (μ - μ') * (F μ + G μ) = F μ' + G μ'
  rw [mul_add, hF μ μ', hG μ μ']

theorem cov_tileL (s : Fin n → ℝ) : Cov (tileL s) := fun μ μ' => by
  unfold tileL
  rw [Finset.mul_sum]
  refine Finset.sum_congr rfl fun j _ => ?_
  rw [← Real.exp_add]
  congr 1
  ring

theorem cov_tileA (s v : Fin n → ℝ) : Cov (tileA s v) := fun μ μ' => by
  unfold tileA
  rw [Finset.mul_sum]
  refine Finset.sum_congr rfl fun j _ => ?_
  rw [← mul_assoc, ← Real.exp_add]
  congr 2
  ring

theorem tileL_pos (hn : 0 < n) (s : Fin n → ℝ) (μ : ℝ) : 0 < tileL s μ :=
  Finset.sum_pos (fun _ _ => Real.exp_pos _) ⟨⟨0, hn⟩, Finset.mem_univ _⟩

/-! ### A tile keeps the state of the form (μ, L μ, A μ) -/

/-- The state is (μ, L μ, A μ) at some real shift μ. -/
def Rep (L A : ℝ → ℝ) (st : EReal × EReal × EReal) : Prop :=
  ∃ μ : ℝ, st = ((μ : EReal), ((L μ : ℝ) : EReal), ((A μ : ℝ) : EReal))

theorem step_rep (hn : 0 < n) (s v : Fin n → ℝ) {L A : ℝ → ℝ} (hL : Cov L) (hA : Cov A)
    {st : EReal × EReal × EReal} (h : Rep L A st) :
    Rep (fun μ => L μ + tileL s μ) (fun μ => A μ + tileA s v μ)
      (step (fun j => (s j : EReal)) (fun j => (v j : EReal)) st) := by
  obtain ⟨μ, rfl⟩ := h
  obtain ⟨r, hr⟩ := fold_max_real hn s
  refine ⟨max μ r, ?_⟩
  simp only [step, hr]
  rw [← coe_max]
  simp only [← EReal.coe_sub, Ideal.exp_coe, ← EReal.coe_mul, ← coe_sum, ← EReal.coe_add]
  rw [hL μ (max μ r), hA μ (max μ r)]
  rfl

/-- The value a * (1 / l) of a state (μ, L μ, A μ) is A M / L M at every real shift M. -/
theorem rep_out {L A : ℝ → ℝ} (hL : Cov L) (hA : Cov A) {st : EReal × EReal × EReal} (h : Rep L A st)
    (M : ℝ) (hpos : 0 < L M) :
    st.2.2 * Ideal.div 1 st.2.1 = ((A M / L M : ℝ) : EReal) := by
  obtain ⟨μ, rfl⟩ := h
  have hLμ : L μ = Real.exp (M - μ) * L M := (hL M μ).symm
  have hAμ : A μ = Real.exp (M - μ) * A M := (hA M μ).symm
  have hpos' : 0 < L μ := by rw [hLμ]; exact mul_pos (Real.exp_pos _) hpos
  show (A μ : EReal) * Ideal.div 1 (L μ : EReal) = _
  rw [Ideal.div_coe (ne_of_gt hpos'), one_mul, ← EReal.coe_mul]
  congr 1
  rw [hAμ, hLμ]
  have h1 : Real.exp (M - μ) ≠ 0 := (Real.exp_pos _).ne'
  have h2 : L M ≠ 0 := hpos.ne'
  field_simp

/-! ### The reference side -/

theorem soft_coe (hn : 0 < n) (s v : Fin 4 → Fin n → ℝ) (M : ℝ) :
    soft (fun t j => (s t j : EReal)) (fun t j => (v t j : EReal)) (M : EReal)
      = ((∑ t, tileA (s t) (v t) M * (1 / ∑ t', tileL (s t') M) : ℝ) : EReal) := by
  have hZ : (0 : ℝ) < ∑ t' : Fin 4, ∑ j' : Fin n, Real.exp (s t' j' - M) :=
    Finset.sum_pos (fun t _ => tileL_pos hn (s t) M) Finset.univ_nonempty
  simp only [soft, tileL, tileA, ← EReal.coe_sub, Ideal.exp_coe, ← coe_sum, zero_add]
  simp only [Ideal.div_coe hZ.ne', ← EReal.coe_mul, ← coe_sum]
  congr 1
  refine Finset.sum_congr rfl fun t _ => ?_
  rw [Finset.sum_mul]
  refine Finset.sum_congr rfl fun j _ => ?_
  ring

/-! ### Four tiles -/

theorem online4_eq_soft (hn : 0 < n) (s v : Fin 4 → Fin n → ℝ) (m0 M : ℝ) :
    (step (fun j => (s 3 j : EReal)) (fun j => (v 3 j : EReal)) (step (fun j => (s 2 j : EReal)) (fun j => (v 2 j : EReal))
      (step (fun j => (s 1 j : EReal)) (fun j => (v 1 j : EReal)) (step (fun j => (s 0 j : EReal)) (fun j => (v 0 j : EReal)) ((m0 : EReal), 0, 0))))).2.2
    * Ideal.div 1 (step (fun j => (s 3 j : EReal)) (fun j => (v 3 j : EReal)) (step (fun j => (s 2 j : EReal)) (fun j => (v 2 j : EReal))
      (step (fun j => (s 1 j : EReal)) (fun j => (v 1 j : EReal)) (step (fun j => (s 0 j : EReal)) (fun j => (v 0 j : EReal)) ((m0 : EReal), 0, 0))))).2.1
    = soft (fun t j => (s t j : EReal)) (fun t j => (v t j : EReal)) (M : EReal) := by
  have h0 : Rep (fun _ => (0 : ℝ)) (fun _ => (0 : ℝ)) ((m0 : EReal), (0 : EReal), (0 : EReal)) := ⟨m0, by simp⟩
  have h1 := step_rep hn (s 0) (v 0) cov_zero cov_zero h0
  have cL1 := cov_add cov_zero (cov_tileL (s 0))
  have cA1 := cov_add cov_zero (cov_tileA (s 0) (v 0))
  have h2 := step_rep hn (s 1) (v 1) cL1 cA1 h1
  have cL2 := cov_add cL1 (cov_tileL (s 1))
  have cA2 := cov_add cA1 (cov_tileA (s 1) (v 1))
  have h3 := step_rep hn (s 2) (v 2) cL2 cA2 h2
  have cL3 := cov_add cL2 (cov_tileL (s 2))
  have cA3 := cov_add cA2 (cov_tileA (s 2) (v 2))
  have h4 := step_rep hn (s 3) (v 3) cL3 cA3 h3
  have cL4 := cov_add cL3 (cov_tileL (s 3))
  have cA4 := cov_add cA3 (cov_tileA (s 3) (v 3))
  have hpos : 0 < 0 + tileL (s 0) M + tileL (s 1) M + tileL (s 2) M + tileL (s 3) M := by
    have p0 := tileL_pos hn (s 0) M
    have p1 := tileL_pos hn (s 1) M
    have p2 := tileL_pos hn (s 2) M
    have p3 := tileL_pos hn (s 3) M
    linarith
  rw [rep_out cL4 cA4 h4 M hpos, soft_coe hn s v M]
  congr 1
  simp only [Fin.sum_univ_four, zero_add]
  ring

end Cert.Lib.OnlineSoftmax
end
-- ==== Proof.Bridge.lean ====
/-
  The kernel's entry and the reference's entry are the same extended real when the inputs are finite.

  For real scores s k and values v k over 2048 keys, the four-tile online softmax from any real seed equals
  Σ_k exp(s k - M)/(0 + Σ_k' exp(s k' - M))·v k at the reference's M — the maximum of the scores, a real number
  (`online_eq_soft`, from the tile-by-tile identity over four tiles of 512, the sum over 2048 keys split into tiles).
  The scores and values are real because q, k, v = x·W + bias are finite sums of products of reals (`proj_real`), and a
  finite sum of products of reals is real. Hence `attn q k v = softAt q k v` entry by entry (`attn_eq_soft`).
-/
import proofs.«167646_j37890201486074_2_alg».proof.Proof.AttnArray
import proofs.«167646_j37890201486074_2_alg».proof.Proof.SoftSpec
import proofs.«167646_j37890201486074_2_alg».proof.Proof.ProjArray
import proofs.«167646_j37890201486074_2_alg».proof.Proof.LibOnlineSoftmax
import proofs.«167646_j37890201486074_2_alg».proof.Proof.Words
import Mathlib.Algebra.BigOperators.Fin
import Mathlib.Logic.Equiv.Fin.Basic

set_option maxRecDepth 16384

noncomputable section

namespace Cert.Bridge

open Idealize.ShloMosaic Idealize.ShloMosaic.ValueIdx
open Cert.KernelIdeal.Attn (rowStep sTile vTile attnAt attn)
open Cert.KernelIdeal.Proj (proj projAt)
open Cert.RefValue (score refMaxAt softAt A3 A2 A1)
open Cert.Lib.OnlineSoftmax (step soft online4_eq_soft fold_max_real coe_sum)

/-- Keys o … o + 511 of a row of 2048. -/
def tile (f : Fin 2048 → EReal) (o : ℕ) (ho : o + 512 ≤ 2048) : Fin 512 → EReal :=
  fun j => f (⟨o + j.val, by have := j.isLt; omega⟩ : Fin 2048)

/-- A sum over 2048 keys, tile by tile. -/
theorem sum_tiles (f : Fin 2048 → EReal) :
    ∑ k, f k = ∑ t : Fin 4, ∑ j : Fin 512, f (⟨512 * t.val + j.val, by have := t.isLt; have := j.isLt; omega⟩ : Fin 2048) := by
  have h := (Equiv.sum_comp (finProdFinEquiv (m := 4) (n := 512)) (fun k : Fin (4 * 512) => f k)).symm
  rw [Fintype.sum_prod_type] at h
  refine h.trans (Finset.sum_congr rfl fun t _ => Finset.sum_congr rfl fun j _ => congrArg f (Fin.ext ?_))
  show j.val + 512 * t.val = 512 * t.val + j.val
  omega

/-- The four-tile online softmax over 2048 real scores and values is the plain softmax at the scores' maximum. -/
theorem online_eq_soft (s v : Fin 2048 → ℝ) (m0 : ℝ) :
    (rowStep (tile (fun k => (s k : EReal)) 1536 (by omega)) (tile (fun k => (v k : EReal)) 1536 (by omega))
      (rowStep (tile (fun k => (s k : EReal)) 1024 (by omega)) (tile (fun k => (v k : EReal)) 1024 (by omega))
        (rowStep (tile (fun k => (s k : EReal)) 512 (by omega)) (tile (fun k => (v k : EReal)) 512 (by omega))
          (rowStep (tile (fun k => (s k : EReal)) 0 (by omega)) (tile (fun k => (v k : EReal)) 0 (by omega)) ((m0 : EReal), 0, 0))))).2.2
      * Ideal.div 1 (rowStep (tile (fun k => (s k : EReal)) 1536 (by omega)) (tile (fun k => (v k : EReal)) 1536 (by omega))
      (rowStep (tile (fun k => (s k : EReal)) 1024 (by omega)) (tile (fun k => (v k : EReal)) 1024 (by omega))
        (rowStep (tile (fun k => (s k : EReal)) 512 (by omega)) (tile (fun k => (v k : EReal)) 512 (by omega))
          (rowStep (tile (fun k => (s k : EReal)) 0 (by omega)) (tile (fun k => (v k : EReal)) 0 (by omega)) ((m0 : EReal), 0, 0))))).2.1
    = ∑ k, Ideal.div (Ideal.exp ((s k : EReal) - max ⊥ (Finset.univ.fold max ⊥ fun k => (s k : EReal))))
        (0 + ∑ k', Ideal.exp ((s k' : EReal) - max ⊥ (Finset.univ.fold max ⊥ fun k => (s k : EReal)))) * (v k : EReal) := by
  obtain ⟨M, hM⟩ := fold_max_real (n := 2048) (by omega) s
  rw [hM, max_eq_right (bot_le : (⊥ : EReal) ≤ (M : EReal))]
  rw [sum_tiles (fun k' => Ideal.exp ((s k' : EReal) - (M : EReal))),
    sum_tiles (fun k => Ideal.div (Ideal.exp ((s k : EReal) - (M : EReal)))
      (0 + ∑ t : Fin 4, ∑ j : Fin 512, Ideal.exp ((s (⟨512 * t.val + j.val, by have := t.isLt; have := j.isLt; omega⟩ : Fin 2048) : EReal) - (M : EReal))) * (v k : EReal))]
  have h := online4_eq_soft (n := 512) (by omega)
    (fun (t : Fin 4) (j : Fin 512) => s (⟨512 * t.val + j.val, by have := t.isLt; have := j.isLt; omega⟩ : Fin 2048))
    (fun (t : Fin 4) (j : Fin 512) => v (⟨512 * t.val + j.val, by have := t.isLt; have := j.isLt; omega⟩ : Fin 2048)) m0 M
  have t0 : ∀ f : Fin 2048 → ℝ, tile (fun k => (f k : EReal)) 0 (by omega)
      = fun j : Fin 512 => ((f (⟨512 * (0 : Fin 4).val + j.val, by have := j.isLt; omega⟩ : Fin 2048) : ℝ) : EReal) := fun f =>
    funext fun j => congrArg (fun k => ((f k : ℝ) : EReal)) (Fin.ext (by show 0 + j.val = 512 * 0 + j.val; omega))
  have t1 : ∀ f : Fin 2048 → ℝ, tile (fun k => (f k : EReal)) 512 (by omega)
      = fun j : Fin 512 => ((f (⟨512 * (1 : Fin 4).val + j.val, by have := j.isLt; omega⟩ : Fin 2048) : ℝ) : EReal) := fun f =>
    funext fun j => congrArg (fun k => ((f k : ℝ) : EReal)) (Fin.ext (by show 512 + j.val = 512 * 1 + j.val; omega))
  have t2 : ∀ f : Fin 2048 → ℝ, tile (fun k => (f k : EReal)) 1024 (by omega)
      = fun j : Fin 512 => ((f (⟨512 * (2 : Fin 4).val + j.val, by have := j.isLt; omega⟩ : Fin 2048) : ℝ) : EReal) := fun f =>
    funext fun j => congrArg (fun k => ((f k : ℝ) : EReal)) (Fin.ext (by show 1024 + j.val = 512 * 2 + j.val; omega))
  have t3 : ∀ f : Fin 2048 → ℝ, tile (fun k => (f k : EReal)) 1536 (by omega)
      = fun j : Fin 512 => ((f (⟨512 * (3 : Fin 4).val + j.val, by have := j.isLt; omega⟩ : Fin 2048) : ℝ) : EReal) := fun f =>
    funext fun j => congrArg (fun k => ((f k : ℝ) : EReal)) (Fin.ext (by show 1536 + j.val = 512 * 3 + j.val; omega))
  rw [t0 s, t0 v, t1 s, t1 v, t2 s, t2 v, t3 s, t3 v]
  exact h

/-- A projection of real arrays is real, entry by entry. -/
theorem proj_real (x : A3) (w : A2) (b : A1) (hx : ∀ i, ∃ r : ℝ, x i = (r : EReal)) (hw : ∀ i, ∃ r : ℝ, w i = (r : EReal))
    (hb : ∀ i, ∃ r : ℝ, b i = (r : EReal)) : ∀ i, ∃ r : ℝ, proj x w b i = (r : EReal) := by
  choose x' hx' using hx
  choose w' hw' using hw
  choose b' hb' using hb
  intro i
  refine ⟨(∑ d : Fin 512, x' (ix3 (i 0) (i 1) d) * w' (ix2 d (i 2))) + b' (ix1 (i 2)), ?_⟩
  show (∑ d : Fin 512, x (ix3 (i 0) (i 1) d) * w (ix2 d (i 2))) + b (ix1 (i 2)) = _
  rw [EReal.coe_add, coe_sum, hb']
  refine congrArg₂ (· + ·) (Finset.sum_congr rfl fun d _ => ?_) rfl
  rw [hx', hw', EReal.coe_mul]

/-- For real query, key and value arrays the kernel's entry is the reference's entry. -/
theorem attn_eq_soft (Q K V : A3) (hQ : ∀ i, ∃ r : ℝ, Q i = (r : EReal)) (hK : ∀ i, ∃ r : ℝ, K i = (r : EReal))
    (hV : ∀ i, ∃ r : ℝ, V i = (r : EReal)) (b : Fin 16) (r : Fin 2048) (e : Fin 512) :
    (attnAt Q K V b r e).2.2 * Ideal.div 1 (attnAt Q K V b r e).2.1 = softAt Q K V b r e := by
  choose q hq using hQ
  choose k hk using hK
  choose v hv using hV
  obtain ⟨m0, hm0⟩ := Cert.Words.seed_real
  have hs : ∀ n : Fin 2048, score Q K b r n = ((∑ d : Fin 512, q (ix3 b r d) * k (ix3 b n d) : ℝ) : EReal) := fun n => by
    unfold score
    rw [coe_sum]
    exact Finset.sum_congr rfl fun d _ => by rw [hq, hk, EReal.coe_mul]
  have hS : ∀ (o : ℕ) (ho : o + 512 ≤ 2048), sTile Q K b r o ho
      = tile (fun n => ((∑ d : Fin 512, q (ix3 b r d) * k (ix3 b n d) : ℝ) : EReal)) o ho := fun o ho => funext fun j => hs _
  have hV' : ∀ (o : ℕ) (ho : o + 512 ≤ 2048), vTile V b e o ho = tile (fun n => ((v (ix3 b n e) : ℝ) : EReal)) o ho :=
    fun o ho => funext fun j => hv _
  unfold attnAt softAt refMaxAt
  rw [hS 1536, hS 1024, hS 512, hS 0, hV' 1536, hV' 1024, hV' 512, hV' 0, hm0]
  simp only [hs, hv]
  exact online_eq_soft (fun n => ∑ d : Fin 512, q (ix3 b r d) * k (ix3 b n d)) (fun n => v (ix3 b n e)) m0

end Cert.Bridge

end
-- ==== Proof.FiniteInputs.lean ====
/-
  The precondition read back: each of the seven float arrays satisfies all(|x| < +∞), the seven verdicts and-ed
  together into one bit. When that bit is 1 over the extended reals, every entry of every array is a real number:
  an extended real x with max x (-x) < ⊤ is neither ⊥ (its negation is ⊤) nor ⊤.
-/
import proofs.«167646_j37890201486074_2_alg».proof.Pre_finite_inputs
import proofs.«167646_j37890201486074_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs
open Idealize.ShloMosaic Cert.Pre_finite_inputs

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The pattern 0x7F800000 (sign 0, exponent all ones, fraction 0) denotes +∞. -/
theorem inf_eq_top : Ideal.ofBits .f32 0x7F800000#32 = (⊤ : EReal) := by
  simp [Ideal.ofBits, Ideal.ieee]

/-- The rank-0 shape has exactly one index. -/
instance : Subsingleton S_.Idx := ⟨fun a b => funext fun d => d.elim0⟩

/-- A one-bit word made from a boolean is 1 exactly when the boolean is true. -/
theorem ofBool_eq_one (b : Bool) : BitVec.ofBool b = 1#1 ↔ b = true := by cases b <;> decide

/-- One entry: if the comparison |x| < +∞ answers 1 over the extended reals, x is real. -/
theorem real_of_cmp (x : EReal)
    (h : FloatOps.cmpf (F := Ideal) (φ := .f32) .olt (FloatOps.absf (F := Ideal) (φ := .f32) x)
          (FloatOps.ofBits (F := Ideal) .f32 0x7F800000#32) = 1#1) :
    ∃ r : ℝ, x = (r : EReal) := by
  rw [Ideal.cmpf_def, Ideal.absf_def] at h
  have e : (FloatOps.ofBits (F := Ideal) .f32 0x7F800000#32) = (⊤ : EReal) := inf_eq_top
  rw [e] at h
  simp only [Ideal.cmp, ofBool_eq_one, decide_eq_true_eq] at h
  exact real_of_abs_lt_top x h

/-- One array, any shape: if the conjunction over all entries of |x i| < +∞ is 1, every entry is real.
    The conjunction being 1 gives the comparison 1 at each index; the broadcast of the scalar +∞ reads +∞ there. -/
theorem entries_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
          (constantI S_ 1 1#1) hr hu j = 1#1) :
    ∀ i, ∃ r : ℝ, x i = (r : EReal) := by
  intro i
  have hi := Host.reduce_andi_all _ _ hr hu j e i
  exact real_of_cmp (x i) hi

/-- The precondition at the extended reals: every entry of each of the seven arrays is a real number.
    The result bit is a left-nested conjunction of seven all-entries verdicts; each being 1 is the per-array step. -/
theorem inputs_real [Cert.Pre_finite_inputs.Facts]
    (x0 : FVec Ideal S16x2048x512 .f32) (x1 : FVec Ideal S512x512 .f32) (x2 : FVec Ideal S512 .f32) (x3 : FVec Ideal S512x512 .f32)
    (x4 : FVec Ideal S512 .f32) (x5 : FVec Ideal S512x512 .f32) (x6 : FVec Ideal S512 .f32)
    (h : Cert.Pre_finite_inputs.fn (F := Ideal) x0 x1 x2 x3 x4 x5 x6 = (fun _ => 1#1)) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, x5 i = (r : EReal)) ∧ (∀ i, ∃ r : ℝ, x6 i = (r : EReal)) := by
  have e := congrFun h ValueIdx.ix0
  dsimp only [fn, fn_part1] at e
  simp only [andi, IntOp.andi_eq_one] at e
  obtain ⟨⟨⟨⟨⟨⟨e0, e1⟩, e2⟩, e3⟩, e4⟩, e5⟩, e6⟩ := e
  exact ⟨entries_real x0 _ _ _ _ e0, entries_real x1 _ _ _ _ e1, entries_real x2 _ _ _ _ e2, entries_real x3 _ _ _ _ e3,
    entries_real x4 _ _ _ _ e4, entries_real x5 _ _ _ _ e5, entries_real x6 _ _ _ _ e6⟩

end Cert.FiniteInputs
end
-- ==== Proof.Claims.lean ====
/-
  The five claims.

  Frames: the kernel (at the word level and idealized) and the reference terminate without a fault and leave their
  arguments unchanged — the generated frames of the kernel, and the reference's run with the result dropped.
  The ideal pass rewrote nothing, so there is nothing to preserve.
  Values: with finite inputs, x·W + bias are arrays of real numbers; over real scores and values the kernel's
  four-tile online softmax from its finite seed and the reference's softmax at the row maximum are the same number
  (the shift cancels between numerator and denominator), so the two results agree entry by entry (`result_eq`).
-/
import proofs.«167646_j37890201486074_2_alg».proof.Defs
import proofs.«167646_j37890201486074_2_alg».proof.Proof.Gen.Kernel.Frame
import proofs.«167646_j37890201486074_2_alg».proof.Proof.Gen.KernelIdeal.Frame
import proofs.«167646_j37890201486074_2_alg».proof.Proof.Gen.ReferenceIdeal.Run
import proofs.«167646_j37890201486074_2_alg».proof.Proof.Gen.ReferenceIdeal.Read
import proofs.«167646_j37890201486074_2_alg».proof.Proof.Gen.Pre_finite_inputs
import proofs.«167646_j37890201486074_2_alg».proof.Proof.KernelRun
import proofs.«167646_j37890201486074_2_alg».proof.Proof.RefValue
import proofs.«167646_j37890201486074_2_alg».proof.Proof.Bridge
import proofs.«167646_j37890201486074_2_alg».proof.Proof.FiniteInputs

set_option maxRecDepth 16384

noncomputable section

namespace Cert.Proof.Claims

open Idealize.ShloMosaic Idealize.ShloMosaic.TcCoe Idealize.ShloMosaic.ValueIdx Idealize.SL.Sem
open Cert.RefValue (A3 A2 A1)
open Cert.KernelIdeal.Proj (proj)
open Cert.KernelIdeal.Attn (attn)

/-- With finite inputs the reference's result is the kernel's function of the argument arrays. -/
theorem result_eq (x0 : A3) (x1 : A2) (x2 : A1) (x3 : A2) (x4 : A1) (x5 : A2) (x6 : A1)
    (hpre : Cert.Pre_finite_inputs.fn (F := Ideal) x0 x1 x2 x3 x4 x5 x6 = (fun _ => 1#1)) :
    Cert.ReferenceIdeal.Read.val_main_v24 (F := Ideal) x0 x1 x2 x3 x4 x5 x6
      = attn (proj x0 x1 x2) (proj x0 x3 x4) (proj x0 x5 x6) := by
  obtain ⟨h0, h1, h2, h3, h4, h5, h6⟩ := Cert.FiniteInputs.inputs_real x0 x1 x2 x3 x4 x5 x6 hpre
  funext i
  obtain ⟨b, r, e, rfl⟩ : ∃ (b : Fin 16) (r : Fin 2048) (e : Fin 512), i = ix3 b r e := ⟨i 0, i 1, i 2, eq_ix3 i⟩
  rw [Cert.RefValue.ref_out]
  exact (Cert.Bridge.attn_eq_soft _ _ _ (Cert.Bridge.proj_real x0 x1 x2 h0 h1 h2) (Cert.Bridge.proj_real x0 x3 x4 h0 h3 h4)
    (Cert.Bridge.proj_real x0 x5 x6 h0 h5 h6) b r e).symm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run; the kernel's result is `attn` of the three projections of its arguments, and the
    reference's result, from arguments that agree, is the same array. -/
theorem algebraic : Cert.algebraic_KernelIdeal_ReferenceIdeal := by
  intro m ρ m' ρ' hpre hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1,
    (hagree c).2.2.2.2.1, (hagree c).2.2.2.2.2.1, (hagree c).2.2.2.2.2.2]
  exact result_eq _ _ _ _ _ _ _ (hpre c)

end Cert.Proof.Claims

end
-- ==== Proof.lean ====
/-
  The proof of `Cert.Claim`: a projection kernel followed by a tiled attention kernel against the plain
  projections and softmax attention. The kernel writes q, k, v = x·W + bias and then, for each query row, walks the 2048
  keys in four tiles of 512 with a running maximum (seeded with a large finite negative number), a running sum and a
  running weighted sum, and divides at the end; the reference subtracts the row maximum, exponentiates, normalizes and
  multiplies by v. Over the extended reals with finite inputs both are Σ_k exp(s_k - M)·v_k / Σ_k exp(s_k - M) for real
  scores s_k, a value that does not depend on the real shift M. The claims are assembled in Proof/Claims.lean.
-/
import proofs.«167646_j37890201486074_2_alg».proof.Defs
import proofs.«167646_j37890201486074_2_alg».proof.Proof.Gen.Kernel
import proofs.«167646_j37890201486074_2_alg».proof.Proof.Gen.Kernel.Skeleton
import proofs.«167646_j37890201486074_2_alg».proof.Proof.Gen.Kernel.Launch
import proofs.«167646_j37890201486074_2_alg».proof.Proof.Gen.Kernel.Points
import proofs.«167646_j37890201486074_2_alg».proof.Proof.Gen.Kernel.Frame
import proofs.«167646_j37890201486074_2_alg».proof.Proof.Gen.KernelIdeal
import proofs.«167646_j37890201486074_2_alg».proof.Proof.Gen.KernelIdeal.Skeleton
import proofs.«167646_j37890201486074_2_alg».proof.Proof.Gen.KernelIdeal.Launch
import proofs.«167646_j37890201486074_2_alg».proof.Proof.Gen.KernelIdeal.Points
import proofs.«167646_j37890201486074_2_alg».proof.Proof.Gen.KernelIdeal.Frame
import proofs.«167646_j37890201486074_2_alg».proof.Proof.Gen.ReferenceIdeal
import proofs.«167646_j37890201486074_2_alg».proof.Proof.Gen.Pre_finite_inputs
import proofs.«167646_j37890201486074_2_alg».proof.Proof.Gen.ReferenceIdeal.Run
import proofs.«167646_j37890201486074_2_alg».proof.Proof.Gen.ReferenceIdeal.Read
import proofs.«167646_j37890201486074_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
